-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x1024x128 : Shape := ⟨3, ![64, 1024, 128]⟩
abbrev S128x128 : Shape := ⟨2, ![128, 128]⟩
abbrev S128 : Shape := ⟨1, ![128]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S64x1024x128 : S_.BroadcastsInDim S64x1024x128 (![] : Fin 0 → Fin S64x1024x128.rank)
  reducesTo_S64x1024x128_S_d0_1_2 : S64x1024x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S64x512x128 .f32) (main_arg1 : FVec F S64x1024x128 .f32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x1024x128 .f32 := Host.absf main_arg1
  let main_cst_0 : FVec F S_ .f32 := constant S_ .f32 0x7F800000#32
  let main_v5 : FVec F S64x1024x128 .f32 := broadcastInDim S64x1024x128 ![] bcast_S_S64x1024x128 main_cst_0
  let main_v6 : IVec S64x1024x128 1 := cmpf .olt main_v4 main_v5
  let main_c_1 : IVec S_ 1 := constantI S_ 1 1#1
  let main_v7 : IVec S_ 1 := (fun x v => Host.reduce IntOp.andi x v reducesTo_S64x1024x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S64x512x128 : Shape := ⟨3, ![64, 512, 128]⟩
abbrev S64x1024x128 : Shape := ⟨3, ![64, 1024, 128]⟩
abbrev S128x128 : Shape := ⟨2, ![128, 128]⟩
abbrev S128 : Shape := ⟨1, ![128]⟩
abbrev S1x128 : Shape := ⟨2, ![1, 128]⟩
abbrev S64x128 : Shape := ⟨2, ![64, 128]⟩
abbrev S8x512x128 : Shape := ⟨3, ![8, 512, 128]⟩
abbrev S8x1024x128 : Shape := ⟨3, ![8, 1024, 128]⟩
abbrev S8x128 : Shape := ⟨2, ![8, 128]⟩
abbrev S1x512x128 : Shape := ⟨3, ![1, 512, 128]⟩
abbrev S512x128 : Shape := ⟨2, ![512, 128]⟩
abbrev S1x1024x128 : Shape := ⟨3, ![1, 1024, 128]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S64x512x128, .f32⟩
  | .hbm, ⟨1, _⟩ => ⟨S64x1024x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S64x128, .f32⟩
  | .local _ .vmem, ⟨0, _⟩ => ⟨S8x512x128, .f32⟩
  | .local _ .vmem, ⟨1, _⟩ => ⟨S8x512x128, .f32⟩
  | .local _ .vmem, ⟨2, _⟩ => ⟨S8x1024x128, .f32⟩
  | .local _ .vmem, ⟨3, _⟩ => ⟨S8x1024x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S8x128, .f32⟩
  | .local _ .vmem, ⟨10, _⟩ => ⟨S8x128, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v13 : Index := Scalar.indexCast arg9
  let c0_10 : Index := 0#32
  let c0_11 : Index := 0#32
  ![v13.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v17 : Index := Scalar.indexCast arg9
  let c0_12 : Index := 0#32
  let c0_13 : Index := 0#32
  ![v17.toNat, 0, 0]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let v53 : Index := Scalar.indexCast arg9
  let c0_24 : Index := 0#32
  ![v53.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x128_S128x128_1_0 : S128x128.Transposes [1, 0] S128x128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  h_S1x512x128 : 0 < S1x512x128.numel
  shapeCasts_S1x512x128_S512x128 : S1x512x128.ShapeCasts S512x128
  h_S1x1024x128 : 0 < S1x1024x128.numel
  shapeCasts_S1x1024x128_S1024x128 : S1x1024x128.ShapeCasts S1024x128
  broadcasts_S1x128_S512x128 : S1x128.Broadcasts S512x128
  broadcasts_S1x128_S1024x128 : S1x128.Broadcasts S1024x128
  reduces_S512x1024_S512 : S512x1024.Reduces [1] S512
  shapeCasts_S512_S512x1 : S512.ShapeCasts S512x1
  broadcasts_S512x1_S512x1024 : S512x1.Broadcasts S512x1024
  reduces_S512x128_S128 : S512x128.Reduces [0] S128
  shapeCasts_S1x128_S128 : S1x128.ShapeCasts S128
  dot_S512x128_S128x128_S512x128_1_0_0_1_n_n_wf : DotDims.WF S512x128 S128x128 S512x128 [1] [0] [0] [1] [] []
  dot_S1024x128_S128x128_S1024x128_1_0_0_1_n_n_wf : DotDims.WF S1024x128 S128x128 S1024x128 [1] [0] [0] [1] [] []
  dot_S512x128_S1024x128_S512x1024_1_1_0_0_n_n_wf : DotDims.WF S512x128 S1024x128 S512x1024 [1] [1] [0] [0] [] []
  dot_S512x1024_S1024x128_S512x128_1_0_0_1_n_n_wf : DotDims.WF S512x1024 S1024x128 S512x128 [1] [0] [0] [1] [] []
  hrank0 : 0 < grid0.rank
  k0_t1_ok : k0_t1_loop.OK
  k0_off1_inb : ∀ k0_t1 : Fin k0_t1_loop.trips, ∀ a, (k0_off1 k0_t1) a + S1x512x128.size a ≤ S8x512x128.size a
  k0_off2_inb : ∀ k0_t1 : Fin k0_t1_loop.trips, ∀ a, (k0_off2 k0_t1) a + S1x1024x128.size a ≤ S8x1024x128.size a
  k0_off3_inb : ∀ k0_t1 : Fin k0_t1_loop.trips, ∀ a, (k0_off3 k0_t1) a + S1x128.size a ≤ S8x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x128.size a ≤ S64x512x128.size a
  hwx0_0 : ∀ i : grid0.Coords, EltTy.bits .f32 = 32 ∨ (Rect.block (s := S64x512x128) S8x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x128.size a ≤ S64x1024x128.size a
  hwx0_1 : ∀ i : grid0.Coords, EltTy.bits .f32 = 32 ∨ (Rect.block (s := S64x1024x128) S8x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S64x128.size a
  hwx0_7 : ∀ i : grid0.Coords, EltTy.bits .f32 = 32 ∨ (Rect.block (s := S64x128) S8x128.size (cc0_transform_7 i) (hinb0_7 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x1024x128 : Shape := ⟨3, ![64, 1024, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S64x512x1024 : Shape := ⟨3, ![64, 512, 1024]⟩
abbrev S64x512 : Shape := ⟨2, ![64, 512]⟩
abbrev S64x512x1 : Shape := ⟨3, ![64, 512, 1]⟩
abbrev S64x128 : Shape := ⟨2, ![64, 128]⟩

abbrev nBuf : Space → Nat
  | .hbm => 46
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x1024x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S64x512x128, .f32⟩
  | .hbm, ⟨8, _⟩ => ⟨S1x1x128, .f32⟩
  | .hbm, ⟨9, _⟩ => ⟨S64x512x128, .f32⟩
  | .hbm, ⟨10, _⟩ => ⟨S64x512x128, .f32⟩
  | .hbm, ⟨11, _⟩ => ⟨S_, .f32⟩
  | .hbm, ⟨12, _⟩ => ⟨S64x512x128, .f32⟩
  | .hbm, ⟨13, _⟩ => ⟨S64x512x128, .f32⟩
  | .hbm, ⟨14, _⟩ => ⟨S64x1024x128, .f32⟩
  | .hbm, ⟨15, _⟩ => ⟨S1x1x128, .f32⟩
  | .hbm, ⟨16, _⟩ => ⟨S64x1024x128, .f32⟩
  | .hbm, ⟨17, _⟩ => ⟨S64x1024x128, .f32⟩
  | .hbm, ⟨18, _⟩ => ⟨S_, .f32⟩
  | .hbm, ⟨19, _⟩ => ⟨S64x1024x128, .f32⟩
  | .hbm, ⟨20, _⟩ => ⟨S64x1024x128, .f32⟩
  | .hbm, ⟨21, _⟩ => ⟨S64x512x1024, .f32⟩
  | .hbm, ⟨22, _⟩ => ⟨S_, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512x1, .f32⟩
  | .hbm, ⟨28, _⟩ => ⟨S64x512x1024, .f32⟩
  | .hbm, ⟨29, _⟩ => ⟨S64x512x1024, .f32⟩
  | .hbm, ⟨30, _⟩ => ⟨S64x512x1024, .f32⟩
  | .hbm, ⟨31, _⟩ => ⟨S_, .f32⟩
  | .hbm, ⟨32, _⟩ => ⟨S64x512, .f32⟩
  | .hbm, ⟨33, _⟩ => ⟨S64x512x1, .f32⟩
  | .hbm, ⟨34, _⟩ => ⟨S64x512x1024, .f32⟩
  | .hbm, ⟨35, _⟩ => ⟨S64x512x1024, .f32⟩
  | .hbm, ⟨36, _⟩ => ⟨S64x512x128, .f32⟩
  | .hbm, ⟨37, _⟩ => ⟨S64x512x128, .f32⟩
  | .hbm, ⟨38, _⟩ => ⟨S1x1x128, .f32⟩
  | .hbm, ⟨39, _⟩ => ⟨S64x512x128, .f32⟩
  | .hbm, ⟨40, _⟩ => ⟨S64x512x128, .f32⟩
  | .hbm, ⟨41, _⟩ => ⟨S_, .f32⟩
  | .hbm, ⟨42, _⟩ => ⟨S64x128, .f32⟩
  | .hbm, ⟨43, _⟩ => ⟨S_, .f32⟩
  | .hbm, ⟨44, _⟩ => ⟨S64x128, .f32⟩
  | .hbm, ⟨45, _⟩ => ⟨S64x128, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S64x512x128_0_1_2 : S1x1x128.BroadcastsInDim S64x512x128 (![0, 1, 2] : Fin 3 → Fin S64x512x128.rank)
  bcast_S_S64x512x128 : S_.BroadcastsInDim S64x512x128 (![] : Fin 0 → Fin S64x512x128.rank)
  bcast_S1x1x128_S64x1024x128_0_1_2 : S1x1x128.BroadcastsInDim S64x1024x128 (![0, 1, 2] : Fin 3 → Fin S64x1024x128.rank)
  bcast_S_S64x1024x128 : S_.BroadcastsInDim S64x1024x128 (![] : Fin 0 → Fin S64x1024x128.rank)
  reducesTo_S64x512x1024_S64x512_d2 : S64x512x1024.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x1024_0_1_2 : S64x512x1.BroadcastsInDim S64x512x1024 (![0, 1, 2] : Fin 3 → Fin S64x512x1024.rank)
  reducesTo_S64x512x128_S64x128_d1 : S64x512x128.ReducesTo [1] S64x128
  bcast_S_S64x128 : S_.BroadcastsInDim S64x128 (![] : Fin 0 → Fin S64x128.rank)
  dot_S64x512x128_S128x128_S64x512x128_2_1_01_0_n_n_wf : DotDims.WF S64x512x128 S128x128 S64x512x128 [2] [1] [0, 1] [0] [] []
  dot_S64x1024x128_S128x128_S64x1024x128_2_1_01_0_n_n_wf : DotDims.WF S64x1024x128 S128x128 S64x1024x128 [2] [1] [0, 1] [0] [] []
  dot_S64x512x128_S64x1024x128_S64x512x1024_2_2_1_1_0_0_wf : DotDims.WF S64x512x128 S64x1024x128 S64x512x1024 [2] [2] [1] [1] [0] [0]
  dot_S64x512x1024_S64x1024x128_S64x512x128_2_1_1_2_0_0_wf : DotDims.WF S64x512x1024 S64x1024x128 S64x512x128 [2] [1] [1] [2] [0] [0]

variable [Facts₀]

def dot_S64x512x128_S128x128_S64x512x128_2_1_01_0_n_n : DotDims S64x512x128 S128x128 S64x512x128 where
  lhsContracting := [2]
  rhsContracting := [1]
  lhsNonContracting := [0, 1]
  rhsNonContracting := [0]
  lhsBatch := []
  rhsBatch := []
  wf := dot_S64x512x128_S128x128_S64x512x128_2_1_01_0_n_n_wf
def dot_S64x1024x128_S128x128_S64x1024x128_2_1_01_0_n_n : DotDims S64x1024x128 S128x128 S64x1024x128 where
  lhsContracting := [2]
  rhsContracting := [1]
  lhsNonContracting := [0, 1]
  rhsNonContracting := [0]
  lhsBatch := []
  rhsBatch := []
  wf := dot_S64x1024x128_S128x128_S64x1024x128_2_1_01_0_n_n_wf
def dot_S64x512x128_S64x1024x128_S64x512x1024_2_2_1_1_0_0 : DotDims S64x512x128 S64x1024x128 S64x512x1024 where
  lhsContracting := [2]
  rhsContracting := [2]
  lhsNonContracting := [1]
  rhsNonContracting := [1]
  lhsBatch := [0]
  rhsBatch := [0]
  wf := dot_S64x512x128_S64x1024x128_S64x512x1024_2_2_1_1_0_0_wf
def dot_S64x512x1024_S64x1024x128_S64x512x128_2_1_1_2_0_0 : DotDims S64x512x1024 S64x1024x128 S64x512x128 where
  lhsContracting := [2]
  rhsContracting := [1]
  lhsNonContracting := [1]
  rhsNonContracting := [2]
  lhsBatch := [0]
  rhsBatch := [0]
  wf := dot_S64x512x1024_S64x1024x128_S64x512x128_2_1_1_2_0_0_wf

class Facts : Prop extends Facts₀ where

variable [Facts]
-- ==== Proof.RowsK.lean ====
/-
  The body's loop stores one row of the output block per trip: trip `k` writes, at row `k`, the row the batch
  element `k` of the two input blocks gives. Every trip first loads the row it is about to overwrite and never uses
  it, so what a trip writes does not depend on what the output block held before. This module states that: the one
  piece a trip writes as a term of the input blocks alone, the list of the pieces of the first `n` trips, and the
  equation between that list and the one the loop's invariant carries, whatever contents the loop started from.
-/
import proofs.«126189_j62294205661461_1_alg».proof.Proof.Gen.Kernel.Loops

noncomputable section

namespace Cert.Kernel.Rows

open Cert.Kernel Cert.Kernel.Gen
open Idealize.ShloMosaic Idealize.ShloMosaic.TcCoe Idealize.SL.Sem

variable {F : FTy → Type} [FloatOps F]

/-- What trip `k` stores: at row `k` of the output block, the row computed from batch element `k` of the two input
    blocks (read through the trip's rectangles) and the five parameter blocks. -/
def tripPiece (arg1 : Memref sig .tc .vmem S8x512x128 .f32) (arg2 : Memref sig .tc .vmem S8x1024x128 .f32)
    (v0 v3 : Vec F S128x128 .f32) (v6 v8 v10 : Vec F S1x128 .f32)
    (X1 : BufTy.Contents (Elt F) arg1.view.ty) (X2 : BufTy.Contents (Elt F) arg2.view.ty) (k : Fin k0_t1_loop.trips) :
    View.Piece (Elt F) S8x128 .f32 :=
  ⟨Rect.unit (s := S8x128) (k0_off3 k) S1x128.size (k0_off3_inb k),
    k0_pay6 (k0_pay7 (k0_pay1 v0) (k0_pay2 v3) (k0_pay3 v6) (k0_pay4 v8) (k0_pay5 v10)
      (View.readAt (Elt F) arg1.view (Rect.unit (s := S8x512x128) (k0_off1 k) S1x512x128.size (k0_off1_inb k)).toLoadRect X1)
      (View.readAt (Elt F) arg2.view (Rect.unit (s := S8x1024x128) (k0_off2 k) S1x1024x128.size (k0_off2_inb k)).toLoadRect X2))⟩

/-- A trip's pieces are that one piece, whatever the output block held when the trip began. -/
theorem tripL_eq (𝒱 : Variants) (c : Dev nD) (bd : Option 𝒱.V) (i : grid0.Coords) (arg1 : Memref sig .tc .vmem S8x512x128 .f32) (harg1 : arg1.IsWhole) (arg2 : Memref sig .tc .vmem S8x1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S8x128 .f32) (harg8 : arg8.IsWhole)
    (v0 v3 : Vec F S128x128 .f32) (v6 v8 v10 : Vec F S1x128 .f32)
    (X1 : BufTy.Contents (Elt F) arg1.view.ty) (X2 : BufTy.Contents (Elt F) arg2.view.ty) (k : Fin k0_t1_loop.trips)
    (f : BufTy.Contents (Elt F) arg8.view.ty) :
    tripL_k0_t1 (F := F) 𝒱 c bd i arg1 harg1 arg2 harg2 arg3 harg3 arg4 harg4 arg5 harg5 arg6 harg6 arg7 harg7 arg8 harg8 v0 v3 v6 v8 v10 X1 X2 k f
      = [tripPiece arg1 arg2 v0 v3 v6 v8 v10 X1 X2 k] := by
  unfold tripL_k0_t1 trip_k0_t1
  rfl

/-- The pieces of the first `n` trips, last first. -/
def pieces (arg1 : Memref sig .tc .vmem S8x512x128 .f32) (arg2 : Memref sig .tc .vmem S8x1024x128 .f32)
    (v0 v3 : Vec F S128x128 .f32) (v6 v8 v10 : Vec F S1x128 .f32)
    (X1 : BufTy.Contents (Elt F) arg1.view.ty) (X2 : BufTy.Contents (Elt F) arg2.view.ty) : ℕ → List (View.Piece (Elt F) S8x128 .f32)
  | 0 => []
  | n + 1 =>
    if h : n < k0_t1_loop.trips then [tripPiece arg1 arg2 v0 v3 v6 v8 v10 X1 X2 ⟨n, h⟩] ++ pieces arg1 arg2 v0 v3 v6 v8 v10 X1 X2 n
    else pieces arg1 arg2 v0 v3 v6 v8 v10 X1 X2 n

/-- The list the loop's invariant carries is that list, whatever contents `G` the loop started from. -/
theorem pb_eq (𝒱 : Variants) (c : Dev nD) (bd : Option 𝒱.V) (i : grid0.Coords) (arg1 : Memref sig .tc .vmem S8x512x128 .f32) (harg1 : arg1.IsWhole) (arg2 : Memref sig .tc .vmem S8x1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S8x128 .f32) (harg8 : arg8.IsWhole)
    (v0 v3 : Vec F S128x128 .f32) (v6 v8 v10 : Vec F S1x128 .f32)
    (X1 : BufTy.Contents (Elt F) arg1.view.ty) (X2 : BufTy.Contents (Elt F) arg2.view.ty)
    (G : BufTy.Contents (Elt F) arg8.view.ty) :
    ∀ n : ℕ, pb_k0_t1 (F := F) 𝒱 c bd i arg1 harg1 arg2 harg2 arg3 harg3 arg4 harg4 arg5 harg5 arg6 harg6 arg7 harg7 arg8 harg8 v0 v3 v6 v8 v10 X1 X2 G n = pieces arg1 arg2 v0 v3 v6 v8 v10 X1 X2 n
  | 0 => rfl
  | n + 1 => by
    rw [pb_k0_t1.eq_2, pieces]
    unfold pb_k0_t1Step
    by_cases h : n < k0_t1_loop.trips
    · rw [dif_pos h, dif_pos h, tripL_eq, pb_eq 𝒱 c bd i arg1 harg1 arg2 harg2 arg3 harg3 arg4 harg4 arg5 harg5 arg6 harg6 arg7 harg7 arg8 harg8 v0 v3 v6 v8 v10 X1 X2 G n]
    · rw [dif_neg h, dif_neg h, pb_eq 𝒱 c bd i arg1 harg1 arg2 harg2 arg3 harg3 arg4 harg4 arg5 harg5 arg6 harg6 arg7 harg7 arg8 harg8 v0 v3 v6 v8 v10 X1 X2 G n]

end Cert.Kernel.Rows

end
-- ==== Proof.RowsI.lean ====
/-
  The body's loop stores one row of the output block per trip: trip `k` writes, at row `k`, the row the batch
  element `k` of the two input blocks gives. Every trip first loads the row it is about to overwrite and never uses
  it, so what a trip writes does not depend on what the output block held before. This module states that: the one
  piece a trip writes as a term of the input blocks alone, the list of the pieces of the first `n` trips, and the
  equation between that list and the one the loop's invariant carries, whatever contents the loop started from.
-/
import proofs.«126189_j62294205661461_1_alg».proof.Proof.Gen.KernelIdeal.Loops

noncomputable section

namespace Cert.KernelIdeal.Rows

open Cert.KernelIdeal Cert.KernelIdeal.Gen
open Idealize.ShloMosaic Idealize.ShloMosaic.TcCoe Idealize.SL.Sem

variable {F : FTy → Type} [FloatOps F]

/-- What trip `k` stores: at row `k` of the output block, the row computed from batch element `k` of the two input
    blocks (read through the trip's rectangles) and the five parameter blocks. -/
def tripPiece (arg1 : Memref sig .tc .vmem S8x512x128 .f32) (arg2 : Memref sig .tc .vmem S8x1024x128 .f32)
    (v0 v3 : Vec F S128x128 .f32) (v6 v8 v10 : Vec F S1x128 .f32)
    (X1 : BufTy.Contents (Elt F) arg1.view.ty) (X2 : BufTy.Contents (Elt F) arg2.view.ty) (k : Fin k0_t1_loop.trips) :
    View.Piece (Elt F) S8x128 .f32 :=
  ⟨Rect.unit (s := S8x128) (k0_off3 k) S1x128.size (k0_off3_inb k),
    k0_pay6 (k0_pay7 (k0_pay1 v0) (k0_pay2 v3) (k0_pay3 v6) (k0_pay4 v8) (k0_pay5 v10)
      (View.readAt (Elt F) arg1.view (Rect.unit (s := S8x512x128) (k0_off1 k) S1x512x128.size (k0_off1_inb k)).toLoadRect X1)
      (View.readAt (Elt F) arg2.view (Rect.unit (s := S8x1024x128) (k0_off2 k) S1x1024x128.size (k0_off2_inb k)).toLoadRect X2))⟩

/-- A trip's pieces are that one piece, whatever the output block held when the trip began. -/
theorem tripL_eq (𝒱 : Variants) (c : Dev nD) (bd : Option 𝒱.V) (i : grid0.Coords) (arg1 : Memref sig .tc .vmem S8x512x128 .f32) (harg1 : arg1.IsWhole) (arg2 : Memref sig .tc .vmem S8x1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S8x128 .f32) (harg8 : arg8.IsWhole)
    (v0 v3 : Vec F S128x128 .f32) (v6 v8 v10 : Vec F S1x128 .f32)
    (X1 : BufTy.Contents (Elt F) arg1.view.ty) (X2 : BufTy.Contents (Elt F) arg2.view.ty) (k : Fin k0_t1_loop.trips)
    (f : BufTy.Contents (Elt F) arg8.view.ty) :
    tripL_k0_t1 (F := F) 𝒱 c bd i arg1 harg1 arg2 harg2 arg3 harg3 arg4 harg4 arg5 harg5 arg6 harg6 arg7 harg7 arg8 harg8 v0 v3 v6 v8 v10 X1 X2 k f
      = [tripPiece arg1 arg2 v0 v3 v6 v8 v10 X1 X2 k] := by
  unfold tripL_k0_t1 trip_k0_t1
  rfl

/-- The pieces of the first `n` trips, last first. -/
def pieces (arg1 : Memref sig .tc .vmem S8x512x128 .f32) (arg2 : Memref sig .tc .vmem S8x1024x128 .f32)
    (v0 v3 : Vec F S128x128 .f32) (v6 v8 v10 : Vec F S1x128 .f32)
    (X1 : BufTy.Contents (Elt F) arg1.view.ty) (X2 : BufTy.Contents (Elt F) arg2.view.ty) : ℕ → List (View.Piece (Elt F) S8x128 .f32)
  | 0 => []
  | n + 1 =>
    if h : n < k0_t1_loop.trips then [tripPiece arg1 arg2 v0 v3 v6 v8 v10 X1 X2 ⟨n, h⟩] ++ pieces arg1 arg2 v0 v3 v6 v8 v10 X1 X2 n
    else pieces arg1 arg2 v0 v3 v6 v8 v10 X1 X2 n

/-- The list the loop's invariant carries is that list, whatever contents `G` the loop started from. -/
theorem pb_eq (𝒱 : Variants) (c : Dev nD) (bd : Option 𝒱.V) (i : grid0.Coords) (arg1 : Memref sig .tc .vmem S8x512x128 .f32) (harg1 : arg1.IsWhole) (arg2 : Memref sig .tc .vmem S8x1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S8x128 .f32) (harg8 : arg8.IsWhole)
    (v0 v3 : Vec F S128x128 .f32) (v6 v8 v10 : Vec F S1x128 .f32)
    (X1 : BufTy.Contents (Elt F) arg1.view.ty) (X2 : BufTy.Contents (Elt F) arg2.view.ty)
    (G : BufTy.Contents (Elt F) arg8.view.ty) :
    ∀ n : ℕ, pb_k0_t1 (F := F) 𝒱 c bd i arg1 harg1 arg2 harg2 arg3 harg3 arg4 harg4 arg5 harg5 arg6 harg6 arg7 harg7 arg8 harg8 v0 v3 v6 v8 v10 X1 X2 G n = pieces arg1 arg2 v0 v3 v6 v8 v10 X1 X2 n
  | 0 => rfl
  | n + 1 => by
    rw [pb_k0_t1.eq_2, pieces]
    unfold pb_k0_t1Step
    by_cases h : n < k0_t1_loop.trips
    · rw [dif_pos h, dif_pos h, tripL_eq, pb_eq 𝒱 c bd i arg1 harg1 arg2 harg2 arg3 harg3 arg4 harg4 arg5 harg5 arg6 harg6 arg7 harg7 arg8 harg8 v0 v3 v6 v8 v10 X1 X2 G n]
    · rw [dif_neg h, dif_neg h, pb_eq 𝒱 c bd i arg1 harg1 arg2 harg2 arg3 harg3 arg4 harg4 arg5 harg5 arg6 harg6 arg7 harg7 arg8 harg8 v0 v3 v6 v8 v10 X1 X2 G n]

end Cert.KernelIdeal.Rows

end
-- ==== Proof.OutI.lean ====
/-
  What the body leaves in the output block, read at an index. The loop's eight trips write the eight rows of the block,
  each trip its own; so the block after the body is, at row `k` and lane `e`, trip `k`'s row at lane `e`: the
  row computed from batch element `k` of the two input blocks and the five parameter blocks.
-/
import proofs.«126189_j62294205661461_1_alg».proof.Proof.FrameI
import Idealize.ShloMosaic.Lib.Pipeline.Value
import Idealize.ShloMosaic.Lib.ValueIdx

noncomputable section

namespace Cert.KernelIdeal.Rows

open Cert.KernelIdeal Cert.KernelIdeal.Gen
open Idealize.ShloMosaic Idealize.ShloMosaic.TcCoe Idealize.SL.Sem Idealize.ShloMosaic.ValueIdx

variable {F : FTy → Type} [FloatOps F]

/-- The loop makes eight trips. -/
theorem trips_eq : k0_t1_loop.trips = 8 := by decide

/-- The row trip `k` computes, as a one-row block. -/
def rowTerm (arg1 : Memref sig .tc .vmem S8x512x128 .f32) (arg2 : Memref sig .tc .vmem S8x1024x128 .f32)
    (v0 v3 : Vec F S128x128 .f32) (v6 v8 v10 : Vec F S1x128 .f32)
    (X1 : BufTy.Contents (Elt F) arg1.view.ty) (X2 : BufTy.Contents (Elt F) arg2.view.ty) (k : Fin k0_t1_loop.trips) :
    FVec F S1x128 .f32 :=
  k0_pay6 (k0_pay7 (k0_pay1 v0) (k0_pay2 v3) (k0_pay3 v6) (k0_pay4 v8) (k0_pay5 v10)
    (View.readAt (Elt F) arg1.view (Rect.unit (s := S8x512x128) (k0_off1 k) S1x512x128.size (k0_off1_inb k)).toLoadRect X1)
    (View.readAt (Elt F) arg2.view (Rect.unit (s := S8x1024x128) (k0_off2 k) S1x1024x128.size (k0_off2_inb k)).toLoadRect X2))

/-- The whole block as one function of its index: at `(k, e)`, trip `k`'s row at lane `e`. -/
def blockFn (arg1 : Memref sig .tc .vmem S8x512x128 .f32) (arg2 : Memref sig .tc .vmem S8x1024x128 .f32)
    (v0 v3 : Vec F S128x128 .f32) (v6 v8 v10 : Vec F S1x128 .f32)
    (X1 : BufTy.Contents (Elt F) arg1.view.ty) (X2 : BufTy.Contents (Elt F) arg2.view.ty) (y : S8x128.Idx) : Elt F .f32 :=
  rowTerm arg1 arg2 v0 v3 v6 v8 v10 X1 X2 ⟨(y 0).val, Nat.lt_of_lt_of_eq (y 0).isLt trips_eq.symm⟩ (ix2 0 (y 1))

/-- Trip `k`'s piece is the block of that function its rectangle names: row `k`, every lane. -/
theorem piece_block (arg1 : Memref sig .tc .vmem S8x512x128 .f32) (arg2 : Memref sig .tc .vmem S8x1024x128 .f32)
    (v0 v3 : Vec F S128x128 .f32) (v6 v8 v10 : Vec F S1x128 .f32)
    (X1 : BufTy.Contents (Elt F) arg1.view.ty) (X2 : BufTy.Contents (Elt F) arg2.view.ty) (k : Fin k0_t1_loop.trips)
    (x : (tripPiece arg1 arg2 v0 v3 v6 v8 v10 X1 X2 k).1.shape.Idx) :
    (tripPiece arg1 arg2 v0 v3 v6 v8 v10 X1 X2 k).2 x
      = blockFn arg1 arg2 v0 v3 v6 v8 v10 X1 X2 ((tripPiece arg1 arg2 v0 v3 v6 v8 v10 X1 X2 k).1.emb x) := by
  have h0 : (x 0).val = 0 := by have := (x 0).isLt; change (x 0).val < 1 at this; omega
  have hoff := k0_off3_eq k
  have e0 : (((tripPiece arg1 arg2 v0 v3 v6 v8 v10 X1 X2 k).1.emb x) 0).val = k.val := by
    show (k0_off3 k) 0 + 1 * (x 0).val = k.val
    rw [hoff, h0]; rfl
  have e1 : (((tripPiece arg1 arg2 v0 v3 v6 v8 v10 X1 X2 k).1.emb x) 1).val = (x 1).val := by
    show (k0_off3 k) 1 + 1 * (x 1).val = (x 1).val
    rw [hoff]; show 0 + 1 * (x 1).val = (x 1).val; omega
  unfold blockFn
  have hk : (⟨(((tripPiece arg1 arg2 v0 v3 v6 v8 v10 X1 X2 k).1.emb x) 0).val,
      Nat.lt_of_lt_of_eq (((tripPiece arg1 arg2 v0 v3 v6 v8 v10 X1 X2 k).1.emb x) 0).isLt trips_eq.symm⟩ : Fin k0_t1_loop.trips) = k :=
    Fin.ext e0
  rw [hk]
  show rowTerm arg1 arg2 v0 v3 v6 v8 v10 X1 X2 k x = rowTerm arg1 arg2 v0 v3 v6 v8 v10 X1 X2 k _
  refine congrArg _ (funext fun a => Fin.ext ?_)
  match a with
  | ⟨0, _⟩ => exact h0
  | ⟨1, _⟩ => exact e1.symm

/-- Every piece of the first `n` trips is its block of that function. -/
theorem pieces_blocks (arg1 : Memref sig .tc .vmem S8x512x128 .f32) (arg2 : Memref sig .tc .vmem S8x1024x128 .f32)
    (v0 v3 : Vec F S128x128 .f32) (v6 v8 v10 : Vec F S1x128 .f32)
    (X1 : BufTy.Contents (Elt F) arg1.view.ty) (X2 : BufTy.Contents (Elt F) arg2.view.ty) :
    ∀ n : ℕ, ∀ p ∈ pieces arg1 arg2 v0 v3 v6 v8 v10 X1 X2 n, ∀ x : p.1.shape.Idx,
      p.2 x = blockFn arg1 arg2 v0 v3 v6 v8 v10 X1 X2 (p.1.emb x)
  | 0 => fun p hp => absurd hp List.not_mem_nil
  | n + 1 => by
    intro p hp x
    rw [pieces] at hp
    by_cases h : n < k0_t1_loop.trips
    · rw [dif_pos h] at hp
      rcases List.mem_append.mp hp with hp | hp
      · obtain rfl := List.mem_singleton.mp hp
        exact piece_block arg1 arg2 v0 v3 v6 v8 v10 X1 X2 ⟨n, h⟩ x
      · exact pieces_blocks arg1 arg2 v0 v3 v6 v8 v10 X1 X2 n p hp x
    · rw [dif_neg h] at hp
      exact pieces_blocks arg1 arg2 v0 v3 v6 v8 v10 X1 X2 n p hp x

/-- The output block after the body, at any index: that function of the blocks the body was given. -/
theorem out_apply (c : Dev nD) (i : grid0.Coords) (arg1 : Memref sig .tc .vmem S8x512x128 .f32) (harg1 : arg1.IsWhole) (arg2 : Memref sig .tc .vmem S8x1024x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S8x128 .f32) (harg8 : arg8.IsWhole)
    (x0 : Vec F S8x512x128 .f32) (x1 : Vec F S8x1024x128 .f32) (x2 : Vec F S128x128 .f32) (x3 : Vec F S1x128 .f32) (x4 : Vec F S128x128 .f32) (x5 : Vec F S1x128 .f32) (x6 : Vec F S1x128 .f32)
    (y : S8x128.Idx) :
    GenP.out0_A_7 c i arg1 harg1 arg2 harg2 arg3 harg3 arg4 harg4 arg5 harg5 arg6 harg6 arg7 harg7 arg8 harg8 x0 x1 x2 x3 x4 x5 x6 y
      = blockFn arg1 arg2
          (View.readAt (Elt F) arg3.view (Rect.unit (s := S128x128) ![0, 0] S128x128.size inb_S128x128_S128x128_0_0).toLoadRect (harg3.unread x2))
          (View.readAt (Elt F) arg5.view (Rect.unit (s := S128x128) ![0, 0] S128x128.size inb_S128x128_S128x128_0_0).toLoadRect (harg5.unread x4))
          (View.readAt (Elt F) arg4.view (Rect.unit (s := S1x128) ![0, 0] S1x128.size inb_S1x128_S1x128_0_0).toLoadRect (harg4.unread x3))
          (View.readAt (Elt F) arg6.view (Rect.unit (s := S1x128) ![0, 0] S1x128.size inb_S1x128_S1x128_0_0).toLoadRect (harg6.unread x5))
          (View.readAt (Elt F) arg7.view (Rect.unit (s := S1x128) ![0, 0] S1x128.size inb_S1x128_S1x128_0_0).toLoadRect (harg7.unread x6))
          (harg1.unread x0) (harg2.unread x1) y := by
  unfold GenP.out0_A_7
  rw [View.read_writes_eq_canon _ _ _ (GenP.cover0_A_7 c i arg1 harg1 arg2 harg2 arg3 harg3 arg4 harg4 arg5 harg5 arg6 harg6 arg7 harg7 arg8 harg8 x0 x1 x2 x3 x4 x5 x6)]
  exact View.canon_apply_of_pieces _ _ (pieces_blocks arg1 arg2 _ _ _ _ _ _ _ _) y (GenP.cover0_A_7 c i arg1 harg1 arg2 harg2 arg3 harg3 arg4 harg4 arg5 harg5 arg6 harg6 arg7 harg7 arg8 harg8 x0 x1 x2 x3 x4 x5 x6 y)

end Cert.KernelIdeal.Rows

end
-- ==== Proof.Spec.lean ====
/-
  Bilinear cross-attention of one batch element, stated entry by entry on the extended reals.

  For a compound block `x` (`N` rows of `D` features), a protein block `y` (`M` rows of `D` features), two square
  weight matrices `W`, `W'` with bias rows `b`, `b'`, and a feature weighting `q`:

    u n e   = max (∑_d x n d · W e d + b e) 0          (a rectified affine map of the rows of `x`)
    v m e   = max (∑_d y m d · W' e d + b' e) 0        (the same of the rows of `y`)
    a n m   = ∑_d u n d · v m d                         (bilinear scores)
    top n   = max (-∞) (max over m of a n m, from -∞)
    p n m   = exp (a n m - top n)
    w n m   = p n m / ∑_m' p n m'                       (the softmax of row n)
    c n d   = ∑_m w n m · v m d                         (context rows)
    out d   = (∑_n (u n d + c n d) · q d) / N           (the weighted mean over the rows)

  The three numerals (0, -∞ and the divisor, the f32 word of 512) stay the words the programs carry; nothing here
  evaluates them. Every function takes its operands as functions of plain coordinates, so that a program's arrays of
  any rank are passed by composing with its index constructors.
-/
import Idealize.ShloMosaic.PureOps.Ideal
import Idealize.ShloMosaic.PureOps.Ideal.Laws

noncomputable section

namespace Cert.BilinearAttn

open Idealize.ShloMosaic

/-- The f32 word of zero, the floor of the rectifier. -/
abbrev zeroW : EReal := Ideal.ofBits .f32 0x00000000#32
/-- The f32 word of -∞, where a row's maximum starts. -/
abbrev negInfW : EReal := Ideal.ofBits .f32 0xFF800000#32
/-- The f32 word of 512, the number of rows the mean divides by. -/
abbrev rowsW : EReal := Ideal.ofBits .f32 0x44000000#32

variable {R N M D : ℕ}

/-- A rectified affine map of the rows of `x`: entry `(r, e)` is `max (∑_d x r d · W e d + b e) 0`. -/
def proj (x : Fin R → Fin D → EReal) (W : Fin D → Fin D → EReal) (b : Fin D → EReal) (r : Fin R) (e : Fin D) : EReal :=
  max ((∑ d : Fin D, x r d * W e d) + b e) zeroW

/-- Bilinear scores: entry `(n, m)` is `∑_d u n d · v m d`. -/
def scores (u : Fin N → Fin D → EReal) (v : Fin M → Fin D → EReal) (n : Fin N) (m : Fin M) : EReal :=
  ∑ d : Fin D, u n d * v m d

/-- The greatest entry of row `n`, taken from -∞ (and once more against -∞, as both programs do). -/
def top (a : Fin N → Fin M → EReal) (n : Fin N) : EReal :=
  max negInfW ((Finset.univ : Finset (Fin M)).fold max negInfW (a n))

/-- The shifted exponentials of a row. -/
def expo (a : Fin N → Fin M → EReal) (n : Fin N) (m : Fin M) : EReal :=
  Ideal.exp (a n m - top a n)

/-- The softmax of each row: `exp (a n m - top n)` over the sum of the row's shifted exponentials. -/
def weights (a : Fin N → Fin M → EReal) (n : Fin N) (m : Fin M) : EReal :=
  Ideal.div (expo a n m) (∑ m' : Fin M, expo a n m')

/-- Context rows: entry `(n, d)` is `∑_m w n m · v m d`. -/
def context (w : Fin N → Fin M → EReal) (v : Fin M → Fin D → EReal) (n : Fin N) (d : Fin D) : EReal :=
  ∑ m : Fin M, w n m * v m d

/-- The weighted mean over the rows: `(∑_n (u n d + c n d) · q d) / 512`. -/
def pooled (u c : Fin N → Fin D → EReal) (q : Fin D → EReal) (d : Fin D) : EReal :=
  Ideal.div (∑ n : Fin N, (u n d + c n d) * q d) rowsW

/-- One batch element's output row, from its two blocks and the layer's parameters. -/
def outRow (x : Fin N → Fin D → EReal) (y : Fin M → Fin D → EReal) (W : Fin D → Fin D → EReal) (b : Fin D → EReal)
    (W' : Fin D → Fin D → EReal) (b' : Fin D → EReal) (q : Fin D → EReal) (d : Fin D) : EReal :=
  pooled (proj x W b) (context (weights (scores (proj x W b) (proj y W' b'))) (proj y W' b')) q d

end Cert.BilinearAttn

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.KerMat.lean ====
/-
  The four matrix products of the kernel's body, read at an output entry at the exact values: each is accumulated from
  the zero splat, so its entry is the plain sum, over the one contracted axis, of the products of the operands' entries.
  The contraction index of a product with one contracted axis is that axis's coordinate; the sum is re-indexed through
  this bijection, and the operands' indices at an output entry and a contraction coordinate are computed axis by axis.
-/
import proofs.«126189_j62294205661461_1_alg».proof.Proof.Gen.KernelIdeal.Skeleton
import proofs.«126189_j62294205661461_1_alg».proof.Proof.Spec
import proofs.«126189_j62294205661461_1_alg».proof.Proof.LibRows
import proofs.«126189_j62294205661461_1_alg».proof.Proof.LibLayout
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.RowValue

open Idealize.ShloMosaic Idealize.ShloMosaic.ValueIdx Cert.KernelIdeal Cert.KernelIdeal.Gen Cert.BilinearAttn

theorem mat512_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mat512_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
/-- A 512-row block times a square block, accumulated from the zero splat, at (n, e): the sum over the shared axis of extent 128. -/
theorem mat512_apply (x : FVec Ideal S512x128 .bf16) (w : FVec Ideal S128x128 .bf16) (n : Fin 512) (e : Fin 128) :
    matmul dot_S512x128_S128x128_S512x128_1_0_0_1_n_n none x w (constant (F := Ideal) S512x128 .f32 0x00000000#32) (ix2 n e)
      = ∑ k : Fin 128, x (ix2 n k) * w (ix2 k e) := by
  refine (Ideal.matmul_constant_zero_apply dot_S512x128_S128x128_S512x128_1_0_0_1_n_n none x w (ix2 n e)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 n e) ((contrEquiv1 dot_S512x128_S128x128_S512x128_1_0_0_1_n_n 128 rfl rfl).symm k) = ix2 n k := funext fun a => Fin.ext (by
    match a with
    | ⟨0, _⟩ => exact mat512_lhs0 _ _
    | ⟨1, _⟩ => exact (dot_S512x128_S128x128_S512x128_1_0_0_1_n_n.lhsIdx_val_of_single rfl _ _).trans hk)
  have er : dot_S512x128_S128x128_S512x128_1_0_0_1_n_n.rhsIdx (ix2 n e) ((contrEquiv1 dot_S512x128_S128x128_S512x128_1_0_0_1_n_n 128 rfl rfl).symm k) = ix2 k e := funext fun a => Fin.ext (by
    match a with
    | ⟨1, _⟩ => exact mat512_rhs1 _ _
    | ⟨0, _⟩ => exact (dot_S512x128_S128x128_S512x128_1_0_0_1_n_n.rhsIdx_val_of_single rfl _ _).trans hk)
  rw [el, er]

theorem mat1024_lhs0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem mat1024_rhs1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
/-- A 1024-row block times a square block, accumulated from the zero splat, at (m, e): the sum over the shared axis of extent 128. -/
theorem mat1024_apply (x : FVec Ideal S1024x128 .bf16) (w : FVec Ideal S128x128 .bf16) (m : Fin 1024) (e : Fin 128) :
    matmul dot_S1024x128_S128x128_S1024x128_1_0_0_1_n_n none x w (constant (F := Ideal) S1024x128 .f32 0x00000000#32) (ix2 m e)
      = ∑ k : Fin 128, x (ix2 m k) * w (ix2 k e) := by
  refine (Ideal.matmul_constant_zero_apply dot_S1024x128_S128x128_S1024x128_1_0_0_1_n_n none x w (ix2 m e)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 m e) ((contrEquiv1 dot_S1024x128_S128x128_S1024x128_1_0_0_1_n_n 128 rfl rfl).symm k) = ix2 m k := funext fun a => Fin.ext (by
    match a with
    | ⟨0, _⟩ => exact mat1024_lhs0 _ _
    | ⟨1, _⟩ => exact (dot_S1024x128_S128x128_S1024x128_1_0_0_1_n_n.lhsIdx_val_of_single rfl _ _).trans hk)
  have er : dot_S1024x128_S128x128_S1024x128_1_0_0_1_n_n.rhsIdx (ix2 m e) ((contrEquiv1 dot_S1024x128_S128x128_S1024x128_1_0_0_1_n_n 128 rfl rfl).symm k) = ix2 k e := funext fun a => Fin.ext (by
    match a with
    | ⟨1, _⟩ => exact mat1024_rhs1 _ _
    | ⟨0, _⟩ => exact (dot_S1024x128_S128x128_S1024x128_1_0_0_1_n_n.rhsIdx_val_of_single rfl _ _).trans hk)
  rw [el, er]

theorem matScores_lhs0 (i : S512x1024.Idx) (q : dot_S512x128_S1024x128_S512x1024_1_1_0_0_n_n.contr.Idx) :
    (dot_S512x128_S1024x128_S512x1024_1_1_0_0_n_n.lhsIdx i q 0).val = (i 0).val := by
  unfold DotDims.lhsIdx
  rw [dif_neg (show ¬(0 : Fin S512x128.rank) ∈ dot_S512x128_S1024x128_S512x1024_1_1_0_0_n_n.lhsBatch by decide), dif_pos (show (0 : Fin S512x128.rank) ∈ dot_S512x128_S1024x128_S512x1024_1_1_0_0_n_n.lhsNonContracting by decide)]
  rfl
theorem matScores_rhs0 (i : S512x1024.Idx) (q : dot_S512x128_S1024x128_S512x1024_1_1_0_0_n_n.contr.Idx) :
    (dot_S512x128_S1024x128_S512x1024_1_1_0_0_n_n.rhsIdx i q 0).val = (i 1).val := by
  unfold DotDims.rhsIdx
  rw [dif_neg (show ¬(0 : Fin S1024x128.rank) ∈ dot_S512x128_S1024x128_S512x1024_1_1_0_0_n_n.rhsBatch by decide), dif_pos (show (0 : Fin S1024x128.rank) ∈ dot_S512x128_S1024x128_S512x1024_1_1_0_0_n_n.rhsNonContracting by decide)]
  rfl
/-- The product contracting the second axis of BOTH operands, at (n, m): the sum over the feature axis of row n of the left times row m of the right. -/
theorem matScores_apply (x : FVec Ideal S512x128 .bf16) (w : FVec Ideal S1024x128 .bf16) (n : Fin 512) (m : Fin 1024) :
    matmul dot_S512x128_S1024x128_S512x1024_1_1_0_0_n_n none x w (constant (F := Ideal) S512x1024 .f32 0x00000000#32) (ix2 n m)
      = ∑ k : Fin 128, x (ix2 n k) * w (ix2 m k) := by
  refine (Ideal.matmul_constant_zero_apply dot_S512x128_S1024x128_S512x1024_1_1_0_0_n_n none x w (ix2 n m)).trans ?_
  rw [← Equiv.sum_comp (contrEquiv1 dot_S512x128_S1024x128_S512x1024_1_1_0_0_n_n 128 rfl rfl).symm]
  refine Finset.sum_congr rfl fun k _ => ?_
  have hk := contrEquiv1_symm_val dot_S512x128_S1024x128_S512x1024_1_1_0_0_n_n 128 rfl rfl k
  have el : dot_S512x128_S1024x128_S512x1024_1_1_0_0_n_n.lhsIdx (ix2 n m) ((contrEquiv1 dot_S512x128_S1024x128_S512x1024_1_1_0_0_n_n 128 rfl rfl).symm k) = ix2 n k := funext fun a => Fin.ext (by
    match a with
    | ⟨0, _⟩ => exact matScores_lhs0 _ _
    | ⟨1, _⟩ => exact (dot_S512x128_S1024x128_S512x1024_1_1_0_0_n_n.lhsIdx_val_of_single rfl _ _).trans hk)
  have er : dot_S512x128_S1024x128_S512x1024_1_1_0_0_n_n.rhsIdx (ix2 n m) ((contrEquiv1 dot_S512x128_S1024x128_S512x1024_1_1_0_0_n_n 128 rfl rfl).symm k) = ix2 m k := funext fun a => Fin.ext (by
    match a with
    | ⟨0, _⟩ => exact matScores_rhs0 _ _
    | ⟨1, _⟩ => exact (dot_S512x128_S1024x128_S512x1024_1_1_0_0_n_n.rhsIdx_val_of_single rfl _ _).trans hk)
  rw [el, er]

theorem matContext_lhs0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem matContext_rhs1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl
/-- A [512, 1024] block times a [1024, 128] block, accumulated from the zero splat, at (n, e): the sum over the shared axis of extent 1024. -/
theorem matContext_apply (x : FVec Ideal S512x1024 .bf16) (w : FVec Ideal S1024x128 .bf16) (n : Fin 512) (e : Fin 128) :
    matmul dot_S512x1024_S1024x128_S512x128_1_0_0_1_n_n none x w (constant (F := Ideal) S512x128 .f32 0x00000000#32) (ix2 n e)
      = ∑ k : Fin 1024, x (ix2 n k) * w (ix2 k e) := by
  refine (Ideal.matmul_constant_zero_apply dot_S512x1024_S1024x128_S512x128_1_0_0_1_n_n none x w (ix2 n e)).trans ?_
  rw [← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 n e) ((contrEquiv1 dot_S512x1024_S1024x128_S512x128_1_0_0_1_n_n 1024 rfl rfl).symm k) = ix2 n k := funext fun a => Fin.ext (by
    match a with
    | ⟨0, _⟩ => exact matContext_lhs0 _ _
    | ⟨1, _⟩ => exact (dot_S512x1024_S1024x128_S512x128_1_0_0_1_n_n.lhsIdx_val_of_single rfl _ _).trans hk)
  have er : dot_S512x1024_S1024x128_S512x128_1_0_0_1_n_n.rhsIdx (ix2 n e) ((contrEquiv1 dot_S512x1024_S1024x128_S512x128_1_0_0_1_n_n 1024 rfl rfl).symm k) = ix2 k e := funext fun a => Fin.ext (by
    match a with
    | ⟨1, _⟩ => exact matContext_rhs1 _ _
    | ⟨0, _⟩ => exact (dot_S512x1024_S1024x128_S512x128_1_0_0_1_n_n.rhsIdx_val_of_single rfl _ _).trans hk)
  rw [el, er]

end Cert.KernelIdeal.RowValue

end
-- ==== Proof.KerProj.lean ====
/-
  The two rectified affine maps of the kernel's body (of the 512-row and of the 1024-row block) and the bilinear scores
  between their results, read at an entry at the exact values, as the specification's `proj` and `scores` of the
  operands' entries. The weight block enters a product by its first axis, so entry (d, e) of the block is the weight of
  output feature e on input feature d.
-/
import proofs.«126189_j62294205661461_1_alg».proof.Proof.Gen.KernelIdeal.Skeleton
import proofs.«126189_j62294205661461_1_alg».proof.Proof.Spec
import proofs.«126189_j62294205661461_1_alg».proof.Proof.LibRows
import proofs.«126189_j62294205661461_1_alg».proof.Proof.LibLayout
import proofs.«126189_j62294205661461_1_alg».proof.Proof.KerMat
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.RowValue

open Idealize.ShloMosaic Idealize.ShloMosaic.ValueIdx Cert.KernelIdeal Cert.KernelIdeal.Gen Cert.BilinearAttn

/-- The rectified affine map of a 512-row block: the product with the weight block from the zero splat, the bias row
    repeated down the rows added, the maximum with the zero splat. -/
def projVec512 (x : FVec Ideal S512x128 .bf16) (w : FVec Ideal S128x128 .bf16) (b : FVec Ideal S1x128 .f32) : FVec Ideal S512x128 .f32 :=
  maximumf
    (addf (matmul dot_S512x128_S128x128_S512x128_1_0_0_1_n_n none x w (constant (F := Ideal) S512x128 .f32 0x00000000#32))
      (broadcastTo S512x128 b broadcasts_S1x128_S512x128))
    (broadcast S512x128 (Scalar.ofBits (F := Ideal) .f32 0x00000000#32))

theorem projVec512_apply (x : FVec Ideal S512x128 .bf16) (w : FVec Ideal S128x128 .bf16) (b : FVec Ideal S1x128 .f32)
    (n : Fin 512) (e : Fin 128) :
    projVec512 x w b (ix2 n e)
      = proj (fun r d => x (ix2 r d)) (fun e' d => w (ix2 d e')) (fun e' => b (ix2 (0 : Fin 1) e')) n e := by
  unfold projVec512 proj
  refine (maximumf_apply _ _ (ix2 n e)).trans ?_
  refine congrArg₂ max ?_ rfl
  refine (addf_apply _ _ (ix2 n e)).trans ?_
  exact congrArg₂ HAdd.hAdd (mat512_apply x w n e) (broadcastTo_1b_ab_apply b broadcasts_S1x128_S512x128 n e)

/-- The rectified affine map of a 1024-row block: the product with the weight block from the zero splat, the bias row
    repeated down the rows added, the maximum with the zero splat. -/
def projVec1024 (x : FVec Ideal S1024x128 .bf16) (w : FVec Ideal S128x128 .bf16) (b : FVec Ideal S1x128 .f32) : FVec Ideal S1024x128 .f32 :=
  maximumf
    (addf (matmul dot_S1024x128_S128x128_S1024x128_1_0_0_1_n_n none x w (constant (F := Ideal) S1024x128 .f32 0x00000000#32))
      (broadcastTo S1024x128 b broadcasts_S1x128_S1024x128))
    (broadcast S1024x128 (Scalar.ofBits (F := Ideal) .f32 0x00000000#32))

theorem projVec1024_apply (x : FVec Ideal S1024x128 .bf16) (w : FVec Ideal S128x128 .bf16) (b : FVec Ideal S1x128 .f32)
    (m : Fin 1024) (e : Fin 128) :
    projVec1024 x w b (ix2 m e)
      = proj (fun r d => x (ix2 r d)) (fun e' d => w (ix2 d e')) (fun e' => b (ix2 (0 : Fin 1) e')) m e := by
  unfold projVec1024 proj
  refine (maximumf_apply _ _ (ix2 m e)).trans ?_
  refine congrArg₂ max ?_ rfl
  refine (addf_apply _ _ (ix2 m e)).trans ?_
  exact congrArg₂ HAdd.hAdd (mat1024_apply x w m e) (broadcastTo_1b_ab_apply b broadcasts_S1x128_S1024x128 m e)

/-- The bilinear scores: the product contracting the feature axis of both blocks, from the zero splat. -/
def scoresVec (u : FVec Ideal S512x128 .bf16) (v : FVec Ideal S1024x128 .bf16) : FVec Ideal S512x1024 .f32 :=
  matmul dot_S512x128_S1024x128_S512x1024_1_1_0_0_n_n none u v (constant (F := Ideal) S512x1024 .f32 0x00000000#32)

theorem scoresVec_apply (u : FVec Ideal S512x128 .bf16) (v : FVec Ideal S1024x128 .bf16) (n : Fin 512) (m : Fin 1024) :
    scoresVec u v (ix2 n m) = scores (fun n d => u (ix2 n d)) (fun m d => v (ix2 m d)) n m := by
  unfold scoresVec scores
  exact matScores_apply u v n m

end Cert.KernelIdeal.RowValue

end
-- ==== Proof.KerSoft.lean ====
/-
  The softmax of the rows of a [512, 1024] array, as the kernel's body computes it, read at an entry at the exact values:
  the row's greatest entry (a fold of max from -∞, taken once more against -∞), made a column and repeated along the row,
  subtracted; the exponential; the row's sum, made a column and repeated along the row; the quotient.
-/
import proofs.«126189_j62294205661461_1_alg».proof.Proof.Gen.KernelIdeal.Skeleton
import proofs.«126189_j62294205661461_1_alg».proof.Proof.Spec
import proofs.«126189_j62294205661461_1_alg».proof.Proof.LibRows
import proofs.«126189_j62294205661461_1_alg».proof.Proof.LibLayout
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.RowValue

open Idealize.ShloMosaic Idealize.ShloMosaic.ValueIdx Cert.KernelIdeal Cert.KernelIdeal.Gen Cert.BilinearAttn

/-- The greatest entry of each row, folded from -∞ and taken once more against -∞. -/
def topVec (a : FVec Ideal S512x1024 .f32) : FVec Ideal S512 .f32 :=
  maximumf (broadcast S512 (Scalar.ofBits (F := Ideal) .f32 0xFF800000#32))
    (multiReduction .maximumf [1] S512 a 0xFF800000#32 reduces_S512x1024_S512 (.inl rfl) rfl)

/-- The exponentials of the entries shifted by their row's greatest entry. -/
def expoVec (a : FVec Ideal S512x1024 .f32) : FVec Ideal S512x1024 .f32 :=
  exp (subf a (broadcastTo S512x1024 (shapeCast S512x1 (topVec a) shapeCasts_S512_S512x1) broadcasts_S512x1_S512x1024))

/-- Each shifted exponential over the sum of its row. -/
def softVec (a : FVec Ideal S512x1024 .f32) : FVec Ideal S512x1024 .f32 :=
  divf (expoVec a)
    (broadcastTo S512x1024
      (shapeCast S512x1 (multiReduction .add [1] S512 (expoVec a) 0x00000000#32 reduces_S512x1024_S512 (.inl rfl) rfl) shapeCasts_S512_S512x1)
      broadcasts_S512x1_S512x1024)

theorem topVec_apply (a : FVec Ideal S512x1024 .f32) (n : Fin 512) :
    topVec a (ix1 n) = top (fun n m => a (ix2 n m)) n := by
  unfold topVec top
  refine (maximumf_apply _ _ (ix1 n)).trans ?_
  exact congrArg (max negInfW) (LibRows.rowMax_apply a 0xFF800000#32 reduces_S512x1024_S512 (.inl rfl) rfl n)

theorem expoVec_apply (a : FVec Ideal S512x1024 .f32) (n : Fin 512) (m : Fin 1024) :
    expoVec a (ix2 n m) = expo (fun n m => a (ix2 n m)) n m := by
  unfold expoVec expo
  show Ideal.exp (a (ix2 n m) - broadcastTo S512x1024 (shapeCast S512x1 (topVec a) shapeCasts_S512_S512x1) broadcasts_S512x1_S512x1024 (ix2 n m)) = _
  refine congrArg (fun t => Ideal.exp (a (ix2 n m) - t)) ?_
  refine (LibLayout.broadcastTo_a1_ab_apply _ broadcasts_S512x1_S512x1024 n m).trans ?_
  refine (LibLayout.shapeCast_a_a1_apply (topVec a) shapeCasts_S512_S512x1 n (0 : Fin 1)).trans ?_
  exact topVec_apply a n

theorem softVec_apply (a : FVec Ideal S512x1024 .f32) (n : Fin 512) (m : Fin 1024) :
    softVec a (ix2 n m) = weights (fun n m => a (ix2 n m)) n m := by
  unfold softVec weights
  refine (divf_apply _ _ (ix2 n m)).trans ?_
  refine congrArg₂ Ideal.div (expoVec_apply a n m) ?_
  refine (LibLayout.broadcastTo_a1_ab_apply _ broadcasts_S512x1_S512x1024 n m).trans ?_
  refine (LibLayout.shapeCast_a_a1_apply _ shapeCasts_S512_S512x1 n (0 : Fin 1)).trans ?_
  refine (LibRows.rowSum_apply (expoVec a) 0x00000000#32 reduces_S512x1024_S512 (.inl rfl) rfl n).trans ?_
  exact Finset.sum_congr rfl fun m' _ => expoVec_apply a n m'

end Cert.KernelIdeal.RowValue

end
-- ==== Proof.KerTail.lean ====
/-
  The tail of the kernel's body read at an entry at the exact values: the context rows (the weights times the 1024-row
  block), and the weighted mean over the rows (the sum over the first axis of a [512, 128] array, divided by the word
  of 512), as the specification's `context` and `pooled`.
-/
import proofs.«126189_j62294205661461_1_alg».proof.Proof.Gen.KernelIdeal.Skeleton
import proofs.«126189_j62294205661461_1_alg».proof.Proof.Spec
import proofs.«126189_j62294205661461_1_alg».proof.Proof.LibRows
import proofs.«126189_j62294205661461_1_alg».proof.Proof.LibLayout
import proofs.«126189_j62294205661461_1_alg».proof.Proof.KerMat
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.RowValue

open Idealize.ShloMosaic Idealize.ShloMosaic.ValueIdx Cert.KernelIdeal Cert.KernelIdeal.Gen Cert.BilinearAttn

variable {φ : FTy}

/-- The sum over the FIRST axis of `[m, n]`, at column `p`: `∑ₛ x (s, p)`. -/
theorem colSum_apply {m n : ℕ} (x : FVec Ideal ⟨2, ![m, n]⟩ φ) (acc : BitVec φ.bits)
    (h : (⟨2, ![m, n]⟩ : Shape).Reduces [(0 : Fin 2)] ⟨1, ![n]⟩) (hφ : FKind.Formats φ) (hacc : acc = FKind.add.neutral φ hφ)
    (p : Fin n) :
    multiReduction .add [(0 : Fin 2)] ⟨1, ![n]⟩ x acc h hφ hacc (ix1 p) = ∑ s : Fin m, x (ix2 s p) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The context rows: the weights times the 1024-row block, from the zero splat. -/
def contextVec (p : FVec Ideal S512x1024 .bf16) (v : FVec Ideal S1024x128 .bf16) : FVec Ideal S512x128 .f32 :=
  matmul dot_S512x1024_S1024x128_S512x128_1_0_0_1_n_n none p v (constant (F := Ideal) S512x128 .f32 0x00000000#32)

theorem contextVec_apply (p : FVec Ideal S512x1024 .bf16) (v : FVec Ideal S1024x128 .bf16) (n : Fin 512) (d : Fin 128) :
    contextVec p v (ix2 n d) = context (fun n m => p (ix2 n m)) (fun m d => v (ix2 m d)) n d := by
  unfold contextVec context
  exact matContext_apply p v n d

/-- The weighted mean over the rows: the two blocks added, times the weighting row repeated down the rows, summed over
    the rows, over the splat of the divisor's word. -/
def pooledVec (u c : FVec Ideal S512x128 .f32) (q : FVec Ideal S1x128 .f32) : FVec Ideal S128 .f32 :=
  divf
    (multiReduction .add [0] S128 (mulf (addf u c) (broadcastTo S512x128 q broadcasts_S1x128_S512x128)) 0x00000000#32
      reduces_S512x128_S128 (.inl rfl) rfl)
    (broadcast S128 (Scalar.ofBits (F := Ideal) .f32 0x44000000#32))

theorem pooledVec_apply (u c : FVec Ideal S512x128 .f32) (q : FVec Ideal S1x128 .f32) (e : Fin 128) :
    pooledVec u c q (ix1 e)
      = pooled (fun n d => u (ix2 n d)) (fun n d => c (ix2 n d)) (fun d => q (ix2 (0 : Fin 1) d)) e := by
  unfold pooledVec pooled
  refine (divf_apply _ _ (ix1 e)).trans ?_
  refine congrArg₂ Ideal.div ?_ rfl
  refine (colSum_apply _ 0x00000000#32 reduces_S512x128_S128 (.inl rfl) rfl e).trans ?_
  exact Finset.sum_congr rfl fun n _ => (mulf_apply _ _ (ix2 n e)).trans
    (congrArg₂ HMul.hMul (addf_apply u c (ix2 n e)) (broadcastTo_1b_ab_apply q broadcasts_S1x128_S512x128 n e))

end Cert.KernelIdeal.RowValue

end
-- ==== Proof.KernelRow.lean ====
/-
  The kernel's body at the exact values is the specification's output row. The body's one pure term is the composition
  of its stages (the two rectified projections, the scores, the row softmax, the context rows, the weighted mean over
  the rows); every rounding to the narrower format is the identity on the exact values, so each stage's result enters
  the next unchanged, and the stages' entry-by-entry readings chain to `outRow`.
-/
import proofs.«126189_j62294205661461_1_alg».proof.Proof.Gen.KernelIdeal.Skeleton
import proofs.«126189_j62294205661461_1_alg».proof.Proof.Spec
import proofs.«126189_j62294205661461_1_alg».proof.Proof.LibRows
import proofs.«126189_j62294205661461_1_alg».proof.Proof.LibLayout
import proofs.«126189_j62294205661461_1_alg».proof.Proof.KerMat
import proofs.«126189_j62294205661461_1_alg».proof.Proof.KerProj
import proofs.«126189_j62294205661461_1_alg».proof.Proof.KerSoft
import proofs.«126189_j62294205661461_1_alg».proof.Proof.KerTail
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.RowValue

open Idealize.ShloMosaic Idealize.ShloMosaic.ValueIdx Cert.KernelIdeal Cert.KernelIdeal.Gen Cert.BilinearAttn

/-- The rectified projection of the batch element's 512-row block, as the body computes it from the loaded block. -/
def blockU (v2 : FVec Ideal S128x128 .bf16) (v7 : FVec Ideal S1x128 .f32) (v14 : Vec Ideal S1x512x128 .f32) : FVec Ideal S512x128 .f32 :=
  projVec512 (truncf .bf16 (shapeCast S512x128 v14 shapeCasts_S1x512x128_S512x128 : FVec Ideal S512x128 .f32) bitsLt_bf16_f32) v2 v7

/-- The rectified projection of the batch element's 1024-row block. -/
def blockV (v5 : FVec Ideal S128x128 .bf16) (v9 : FVec Ideal S1x128 .f32) (v18 : Vec Ideal S1x1024x128 .f32) : FVec Ideal S1024x128 .f32 :=
  projVec1024 (truncf .bf16 (shapeCast S1024x128 v18 shapeCasts_S1x1024x128_S1024x128 : FVec Ideal S1024x128 .f32) bitsLt_bf16_f32) v5 v9

/-- The body's value is the composition of its stages: both sides are the same term once the stages are unfolded. -/
theorem pay7_eq (v2 v5 : FVec Ideal S128x128 .bf16) (v7 v9 v11 : FVec Ideal S1x128 .f32) (v14 : Vec Ideal S1x512x128 .f32)
    (v18 : Vec Ideal S1x1024x128 .f32) :
    k0_pay7 (F := Ideal) v2 v5 v7 v9 v11 v14 v18
      = pooledVec (blockU v2 v7 v14)
          (contextVec
            (truncf .bf16
              (softVec (scoresVec (truncf .bf16 (blockU v2 v7 v14) bitsLt_bf16_f32) (truncf .bf16 (blockV v5 v9 v18) bitsLt_bf16_f32)))
              bitsLt_bf16_f32)
            (truncf .bf16 (blockV v5 v9 v18) bitsLt_bf16_f32))
          v11 := rfl

theorem blockU_apply (v2 : FVec Ideal S128x128 .bf16) (v7 : FVec Ideal S1x128 .f32) (v14 : Vec Ideal S1x512x128 .f32) :
    (fun (n : Fin 512) (d : Fin 128) => blockU v2 v7 v14 (ix2 n d))
      = proj (fun n d => v14 (ix3 (0 : Fin 1) n d)) (fun e' d => v2 (ix2 d e')) (fun e' => v7 (ix2 (0 : Fin 1) e')) :=
  funext fun n => funext fun d => by
    unfold blockU
    refine (projVec512_apply _ v2 v7 n d).trans ?_
    exact congrArg (fun x => proj x (fun e' d => v2 (ix2 d e')) (fun e' => v7 (ix2 (0 : Fin 1) e')) n d)
      (funext fun r => funext fun k => shapeCast_1ab_ab_apply v14 shapeCasts_S1x512x128_S512x128 r k)

theorem blockV_apply (v5 : FVec Ideal S128x128 .bf16) (v9 : FVec Ideal S1x128 .f32) (v18 : Vec Ideal S1x1024x128 .f32) :
    (fun (m : Fin 1024) (d : Fin 128) => blockV v5 v9 v18 (ix2 m d))
      = proj (fun m d => v18 (ix3 (0 : Fin 1) m d)) (fun e' d => v5 (ix2 d e')) (fun e' => v9 (ix2 (0 : Fin 1) e')) :=
  funext fun m => funext fun d => by
    unfold blockV
    refine (projVec1024_apply _ v5 v9 m d).trans ?_
    exact congrArg (fun y => proj y (fun e' d => v5 (ix2 d e')) (fun e' => v9 (ix2 (0 : Fin 1) e')) m d)
      (funext fun r => funext fun k => shapeCast_1ab_ab_apply v18 shapeCasts_S1x1024x128_S1024x128 r k)

/-- The body's value at feature `e` is the specification's output row of the two loaded blocks and the parameters:
    the weight blocks enter transposed, entry (d, e') of a block being the weight of output feature e' on input d. -/
theorem pay7_apply (v2 v5 : FVec Ideal S128x128 .bf16) (v7 v9 v11 : FVec Ideal S1x128 .f32) (v14 : Vec Ideal S1x512x128 .f32) (v18 : Vec Ideal S1x1024x128 .f32) (e : Fin 128) :
    k0_pay7 (F := Ideal) v2 v5 v7 v9 v11 v14 v18 (ix1 e)
      = outRow (fun n d => v14 (ix3 0 n d)) (fun m d => v18 (ix3 0 m d)) (fun e' d => v2 (ix2 d e')) (fun e' => v7 (ix2 0 e'))
          (fun e' d => v5 (ix2 d e')) (fun e' => v9 (ix2 0 e')) (fun e' => v11 (ix2 0 e')) e := by
  refine (congrFun (pay7_eq v2 v5 v7 v9 v11 v14 v18) (ix1 e)).trans ?_
  refine (pooledVec_apply _ _ v11 e).trans ?_
  unfold outRow
  have hU := blockU_apply v2 v7 v14
  have hV := blockV_apply v5 v9 v18
  have hA : (fun (n : Fin 512) (m : Fin 1024) =>
      scoresVec (truncf .bf16 (blockU v2 v7 v14) bitsLt_bf16_f32) (truncf .bf16 (blockV v5 v9 v18) bitsLt_bf16_f32) (ix2 n m))
        = scores (proj (fun n d => v14 (ix3 (0 : Fin 1) n d)) (fun e' d => v2 (ix2 d e')) (fun e' => v7 (ix2 (0 : Fin 1) e')))
            (proj (fun m d => v18 (ix3 (0 : Fin 1) m d)) (fun e' d => v5 (ix2 d e')) (fun e' => v9 (ix2 (0 : Fin 1) e'))) :=
    funext fun n => funext fun m => (scoresVec_apply _ _ n m).trans (congrArg₂ (fun u v => scores u v n m) hU hV)
  have hW := fun (n : Fin 512) (m : Fin 1024) =>
    (softVec_apply (scoresVec (truncf .bf16 (blockU v2 v7 v14) bitsLt_bf16_f32) (truncf .bf16 (blockV v5 v9 v18) bitsLt_bf16_f32)) n m).trans
      (congrArg (fun a => weights a n m) hA)
  have hC := fun (n : Fin 512) (d : Fin 128) =>
    (contextVec_apply
      (truncf .bf16
        (softVec (scoresVec (truncf .bf16 (blockU v2 v7 v14) bitsLt_bf16_f32) (truncf .bf16 (blockV v5 v9 v18) bitsLt_bf16_f32)))
        bitsLt_bf16_f32)
      (truncf .bf16 (blockV v5 v9 v18) bitsLt_bf16_f32) n d).trans
      (congrArg₂ (fun w v => context w v n d) (funext fun n => funext fun m => hW n m) hV)
  exact congrArg₂ (fun u c => pooled u c (fun e' => v11 (ix2 (0 : Fin 1) e')) e) hU (funext fun n => funext fun d => hC n d)

/-- A cast to the same shape and the identity rounding leave a weight block as loaded. -/
theorem pay1_eq (v0 : Vec Ideal S128x128 .f32) : k0_pay1 (F := Ideal) v0 = v0 :=
  shapeCast_self v0 shapeCasts_S128x128_S128x128

theorem pay2_eq (v3 : Vec Ideal S128x128 .f32) : k0_pay2 (F := Ideal) v3 = v3 :=
  shapeCast_self v3 shapeCasts_S128x128_S128x128

/-- A cast to the same shape leaves a parameter row as loaded. -/
theorem pay3_eq (v6 : Vec Ideal S1x128 .f32) : k0_pay3 (F := Ideal) v6 = v6 :=
  shapeCast_self v6 shapeCasts_S1x128_S1x128

theorem pay4_eq (v8 : Vec Ideal S1x128 .f32) : k0_pay4 (F := Ideal) v8 = v8 :=
  shapeCast_self v8 shapeCasts_S1x128_S1x128

theorem pay5_eq (v10 : Vec Ideal S1x128 .f32) : k0_pay5 (F := Ideal) v10 = v10 :=
  shapeCast_self v10 shapeCasts_S1x128_S1x128

/-- The output row stored as a one-row block reads, at (0, e), the row at e. -/
theorem pay6_apply (v52 : FVec Ideal S128 .f32) (e : Fin 128) : k0_pay6 (F := Ideal) v52 (ix2 0 e) = v52 (ix1 e) :=
  shapeCast_a_1a_apply v52 shapeCasts_S128_S1x128 (0 : Fin 1) e

end Cert.KernelIdeal.RowValue

end
-- ==== Proof.GeomI.lean ====
/-
  The geometry of the kernel's windows: which entry of which argument array each block entry is.

  The grid has eight points. At point `t` the first two windows hold rows `8t … 8t + 7` of the first two argument
  arrays (block index `(t, 0, 0)`, blocks of eight batch rows); the five parameter windows hold, whole, the arrays the
  host wrote before the region — the two weight matrices transposed and the three vectors as one-row matrices —, so a
  block entry is the argument's entry at the transposed, respectively the column, coordinate; the output window's
  block at point `t` is rows `8t … 8t + 7` of the result, and these eight blocks cover it.
-/
import proofs.«126189_j62294205661461_1_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.Tactic

noncomputable section

namespace Cert.KernelIdeal.Geom
open Cert.KernelIdeal Cert.KernelIdeal.Gen Idealize.ShloMosaic Idealize.ShloMosaic.TcCoe Idealize.SL.Sem Idealize.ShloMosaic.ValueIdx
variable {F : FTy → Type} [FloatOps F]
variable (m : (ℓ : Loc nD τ sig) → Buf (Elt F) ℓ)

/-! ## The block indices, decided over the grid -/

theorem idx0 : ∀ t : Fin cfg0.N, win0_0.index t 0 = t.val ∧ win0_0.index t 1 = 0 ∧ win0_0.index t 2 = 0 :=
  (by decide +kernel : ∀ t : Fin grid0.N, _)
theorem idx1 : ∀ t : Fin cfg0.N, win0_1.index t 0 = t.val ∧ win0_1.index t 1 = 0 ∧ win0_1.index t 2 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 ∧ win0_5.index t 1 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = t.val ∧ win0_7.index t 1 = 0 :=
  (by decide +kernel : ∀ t : Fin grid0.N, _)

/-! ## The two row-block windows -/

theorem blk0_apply (c : Dev nD) (t : Fin cfg0.N) (k : Fin 8) (n : Fin 512) (d : Fin 128) (b : Fin 64) (hb : b.val = 8 * t.val + k.val) :
    (iblk m c 0 t : S8x512x128.Idx → Elt F .f32) (ix3 k n d) = (m ((c : Thread nD τ).loc main_arg0) : S64x512x128.Idx → Elt F .f32) (ix3 b n d) := by
  obtain ⟨h0, h1, h2⟩ := idx0 t
  unfold iblk
  rw [View.read_apply]
  show V m c main_arg0 _ = m (c.tc.loc main_arg0) _
  rw [V_main_arg0]
  refine congrArg (m (c.tc.loc main_arg0) : S64x512x128.Idx → Elt F .f32) ?_
  funext a
  apply Fin.ext
  match a with
  | ⟨0, _⟩ => show win0_0.index t 0 * 8 + 1 * k.val = b.val; rw [h0, hb]; omega
  | ⟨1, _⟩ => show win0_0.index t 1 * 512 + 1 * n.val = n.val; rw [h1]; omega
  | ⟨2, _⟩ => show win0_0.index t 2 * 128 + 1 * d.val = d.val; rw [h2]; omega

theorem blk1_apply (c : Dev nD) (t : Fin cfg0.N) (k : Fin 8) (n : Fin 1024) (d : Fin 128) (b : Fin 64) (hb : b.val = 8 * t.val + k.val) :
    (iblk m c 1 t : S8x1024x128.Idx → Elt F .f32) (ix3 k n d) = (m ((c : Thread nD τ).loc main_arg1) : S64x1024x128.Idx → Elt F .f32) (ix3 b n d) := by
  obtain ⟨h0, h1, h2⟩ := idx1 t
  unfold iblk
  rw [View.read_apply]
  show V m c main_arg1 _ = m (c.tc.loc main_arg1) _
  rw [V_main_arg1]
  refine congrArg (m (c.tc.loc main_arg1) : S64x1024x128.Idx → Elt F .f32) ?_
  funext a
  apply Fin.ext
  match a with
  | ⟨0, _⟩ => show win0_1.index t 0 * 8 + 1 * k.val = b.val; rw [h0, hb]; omega
  | ⟨1, _⟩ => show win0_1.index t 1 * 1024 + 1 * n.val = n.val; rw [h1]; omega
  | ⟨2, _⟩ => show win0_1.index t 2 * 128 + 1 * d.val = d.val; rw [h2]; omega

/-! ## The two transposed weights -/

/-- The array window 2 stages is argument `main_arg2` transposed. -/
theorem V_main_v0 (c : Dev nD) : (V m c main_v0 : S128x128.Idx → Elt F .f32)
    = transpose S128x128 [1, 0] (m ((c : Thread nD τ).loc main_arg2) : S128x128.Idx → Elt F .f32) transposes_S128x128_S128x128_1_0 := by
  dsimp only [Gen.V, Gen.hostOps0]
  after_results

theorem blk2_apply (c : Dev nD) (t : Fin cfg0.N) (d e : Fin 128) :
    (iblk m c 2 t : S128x128.Idx → Elt F .f32) (ix2 d e) = (m ((c : Thread nD τ).loc main_arg2) : S128x128.Idx → Elt F .f32) (ix2 e d) := by
  obtain ⟨h0, h1⟩ := idx2 t
  unfold iblk
  rw [View.read_apply]
  show (V m c main_v0 : S128x128.Idx → Elt F .f32) _ = _
  rw [V_main_v0]
  refine Eq.trans (congrArg _ ?_) (transpose_ix2_apply _ _ d e)
  funext a
  apply Fin.ext
  match a with
  | ⟨0, _⟩ => show win0_2.index t 0 * 128 + 1 * d.val = d.val; rw [h0]; omega
  | ⟨1, _⟩ => show win0_2.index t 1 * 128 + 1 * e.val = e.val; rw [h1]; omega

/-- The array window 4 stages is argument `main_arg4` transposed. -/
theorem V_main_v1 (c : Dev nD) : (V m c main_v1 : S128x128.Idx → Elt F .f32)
    = transpose S128x128 [1, 0] (m ((c : Thread nD τ).loc main_arg4) : S128x128.Idx → Elt F .f32) transposes_S128x128_S128x128_1_0 := by
  dsimp only [Gen.V, Gen.hostOps0]
  after_results

theorem blk4_apply (c : Dev nD) (t : Fin cfg0.N) (d e : Fin 128) :
    (iblk m c 4 t : S128x128.Idx → Elt F .f32) (ix2 d e) = (m ((c : Thread nD τ).loc main_arg4) : S128x128.Idx → Elt F .f32) (ix2 e d) := by
  obtain ⟨h0, h1⟩ := idx4 t
  unfold iblk
  rw [View.read_apply]
  show (V m c main_v1 : S128x128.Idx → Elt F .f32) _ = _
  rw [V_main_v1]
  refine Eq.trans (congrArg _ ?_) (transpose_ix2_apply _ _ d e)
  funext a
  apply Fin.ext
  match a with
  | ⟨0, _⟩ => show win0_4.index t 0 * 128 + 1 * d.val = d.val; rw [h0]; omega
  | ⟨1, _⟩ => show win0_4.index t 1 * 128 + 1 * e.val = e.val; rw [h1]; omega

/-! ## The three vectors as one-row matrices -/

/-- The array window 3 stages is argument `main_arg3` as a one-row matrix. -/
theorem V_main_v2 (c : Dev nD) : (V m c main_v2 : S1x128.Idx → Elt F .f32)
    = shapeCast S1x128 (m ((c : Thread nD τ).loc main_arg3) : S128.Idx → Elt F .f32) shapeCasts_S128_S1x128 := by
  dsimp only [Gen.V, Gen.hostOps0]
  after_results
  rfl

theorem blk3_apply (c : Dev nD) (t : Fin cfg0.N) (e : Fin 128) :
    (iblk m c 3 t : S1x128.Idx → Elt F .f32) (ix2 0 e) = (m ((c : Thread nD τ).loc main_arg3) : S128.Idx → Elt F .f32) (ix1 e) := by
  obtain ⟨h0, h1⟩ := idx3 t
  unfold iblk
  rw [View.read_apply]
  show (V m c main_v2 : S1x128.Idx → Elt F .f32) _ = _
  rw [V_main_v2]
  refine Eq.trans (congrArg _ ?_) (shapeCast_a_1a_apply _ _ (0 : Fin 1) e)
  funext a
  apply Fin.ext
  match a with
  | ⟨0, _⟩ => show win0_3.index t 0 * 1 + 1 * (0 : Fin 1).val = (0 : Fin 1).val; rw [h0]; rfl
  | ⟨1, _⟩ => show win0_3.index t 1 * 128 + 1 * e.val = e.val; rw [h1]; omega

/-- The array window 5 stages is argument `main_arg5` as a one-row matrix. -/
theorem V_main_v3 (c : Dev nD) : (V m c main_v3 : S1x128.Idx → Elt F .f32)
    = shapeCast S1x128 (m ((c : Thread nD τ).loc main_arg5) : S128.Idx → Elt F .f32) shapeCasts_S128_S1x128 := by
  dsimp only [Gen.V, Gen.hostOps0]
  after_results
  rfl

theorem blk5_apply (c : Dev nD) (t : Fin cfg0.N) (e : Fin 128) :
    (iblk m c 5 t : S1x128.Idx → Elt F .f32) (ix2 0 e) = (m ((c : Thread nD τ).loc main_arg5) : S128.Idx → Elt F .f32) (ix1 e) := by
  obtain ⟨h0, h1⟩ := idx5 t
  unfold iblk
  rw [View.read_apply]
  show (V m c main_v3 : S1x128.Idx → Elt F .f32) _ = _
  rw [V_main_v3]
  refine Eq.trans (congrArg _ ?_) (shapeCast_a_1a_apply _ _ (0 : Fin 1) e)
  funext a
  apply Fin.ext
  match a with
  | ⟨0, _⟩ => show win0_5.index t 0 * 1 + 1 * (0 : Fin 1).val = (0 : Fin 1).val; rw [h0]; rfl
  | ⟨1, _⟩ => show win0_5.index t 1 * 128 + 1 * e.val = e.val; rw [h1]; omega

/-- The array window 6 stages is argument `main_arg6` as a one-row matrix. -/
theorem V_main_v4 (c : Dev nD) : (V m c main_v4 : S1x128.Idx → Elt F .f32)
    = shapeCast S1x128 (m ((c : Thread nD τ).loc main_arg6) : S128.Idx → Elt F .f32) shapeCasts_S128_S1x128 := by
  dsimp only [Gen.V, Gen.hostOps0]
  after_results
  rfl

theorem blk6_apply (c : Dev nD) (t : Fin cfg0.N) (e : Fin 128) :
    (iblk m c 6 t : S1x128.Idx → Elt F .f32) (ix2 0 e) = (m ((c : Thread nD τ).loc main_arg6) : S128.Idx → Elt F .f32) (ix1 e) := by
  obtain ⟨h0, h1⟩ := idx6 t
  unfold iblk
  rw [View.read_apply]
  show (V m c main_v4 : S1x128.Idx → Elt F .f32) _ = _
  rw [V_main_v4]
  refine Eq.trans (congrArg _ ?_) (shapeCast_a_1a_apply _ _ (0 : Fin 1) e)
  funext a
  apply Fin.ext
  match a with
  | ⟨0, _⟩ => show win0_6.index t 0 * 1 + 1 * (0 : Fin 1).val = (0 : Fin 1).val; rw [h0]; rfl
  | ⟨1, _⟩ => show win0_6.index t 1 * 128 + 1 * e.val = e.val; rw [h1]; omega

/-! ## The output window -/

theorem out_emb (t : Fin cfg0.N) (k : Fin 8) (e : Fin 128) (b : Fin 64) (hb : b.val = 8 * t.val + k.val) :
    ((cfg0.win 7).blk t).view.emb (ix2 k e) = (ix2 b e : S64x128.Idx) := by
  obtain ⟨h0, h1⟩ := idx7 t
  funext a
  apply Fin.ext
  match a with
  | ⟨0, _⟩ => show win0_7.index t 0 * 8 + 1 * k.val = b.val; rw [h0, hb]; omega
  | ⟨1, _⟩ => show win0_7.index t 1 * 128 + 1 * e.val = e.val; rw [h1]; omega

/-- Every entry of the result is in the block of the point its row's eighth names. -/
theorem out_cover (i : S64x128.Idx) : ∃ t : Fin cfg0.N, (cfg0.win 7).flush t = true ∧ i ∈ ((cfg0.win 7).blk t).view.set := by
  have hN : cfg0.N = 8 := N_0
  have hi0 : (i 0).val < 64 := (i 0).isLt
  have hi1 : (i 1).val < 128 := (i 1).isLt
  obtain ⟨t, ht⟩ : ∃ t : Fin cfg0.N, t.val = (i 0).val / 8 := ⟨⟨(i 0).val / 8, by rw [hN]; omega⟩, rfl⟩
  obtain ⟨h0, h1⟩ := idx7 t
  refine ⟨t, flush0_7 t, ?_⟩
  show i ∈ ((View.whole main_v5).slice (win0_7.rect t)).set
  rw [View.set_slice_whole, Rect.mem_set_unit]
  intro a
  match a with
  | ⟨0, _⟩ =>
    show win0_7.index t 0 * 8 ≤ (i 0).val ∧ (i 0).val < win0_7.index t 0 * 8 + 8
    rw [h0, ht]; omega
  | ⟨1, _⟩ =>
    show win0_7.index t 1 * 128 ≤ (i 1).val ∧ (i 1).val < win0_7.index t 1 * 128 + 128
    rw [h1]; omega

end Cert.KernelIdeal.Geom

end
-- ==== Proof.BlocksI.lean ====
/-
  The result array of the kernel's program as one function of its seven argument arrays.

  Grid point `t` stages batch elements `8t … 8t + 7` of the two inputs and the five parameter arrays whole (the two
  weight matrices transposed on the way in, the three vectors as one-row blocks); its body writes row `k` of the
  output block from batch element `k` of the staged blocks; the block is written back to rows `8t … 8t + 7` of the
  result. So entry `(b, e)` of the result is the output row of batch element `b` at `e`, and the eight points'
  blocks fill the array.
-/
import proofs.«126189_j62294205661461_1_alg».proof.Proof.OutI
import proofs.«126189_j62294205661461_1_alg».proof.Proof.KernelRow
import proofs.«126189_j62294205661461_1_alg».proof.Proof.Spec
import proofs.«126189_j62294205661461_1_alg».proof.Proof.GeomI

import Idealize.ShloMosaic.Lib.Pipeline.Value
import Idealize.ShloMosaic.Lib.ValueIdx

noncomputable section

namespace Cert.KernelIdeal.Blocks

open Cert.KernelIdeal Cert.KernelIdeal.Gen Cert.BilinearAttn
open Idealize.ShloMosaic Idealize.ShloMosaic.TcCoe Idealize.SL.Sem Idealize.ShloMosaic.ValueIdx
open Idealize.ShloMosaic.Pipeline (Dat)

/-- Entry `(b, e)` of the result: the output row of batch element `b`, at `e`. -/
def resultAt (a0 : S64x512x128.Idx → EReal) (a1 : S64x1024x128.Idx → EReal) (a2 : S128x128.Idx → EReal) (a3 : S128.Idx → EReal)
    (a4 : S128x128.Idx → EReal) (a5 a6 : S128.Idx → EReal) (b : Fin 64) (e : Fin 128) : EReal :=
  outRow (fun n d => a0 (ix3 b n d)) (fun m d => a1 (ix3 b m d)) (fun e' d => a2 (ix2 e' d)) (fun e' => a3 (ix1 e'))
    (fun e' d => a4 (ix2 e' d)) (fun e' => a5 (ix1 e')) (fun e' => a6 (ix1 e')) e

/-- The result array. -/
def result (a0 : S64x512x128.Idx → EReal) (a1 : S64x1024x128.Idx → EReal) (a2 : S128x128.Idx → EReal) (a3 : S128.Idx → EReal)
    (a4 : S128x128.Idx → EReal) (a5 a6 : S128.Idx → EReal) : S64x128.Idx → EReal :=
  fun i => resultAt a0 a1 a2 a3 a4 a5 a6 (i 0) (i 1)

/-- The output row depends on its seven operands entry by entry. -/
theorem outRow_congr {N M D : ℕ} {x x' : Fin N → Fin D → EReal} {y y' : Fin M → Fin D → EReal} {W W' V V' : Fin D → Fin D → EReal}
    {b b' c c' q q' : Fin D → EReal} (hx : ∀ n d, x n d = x' n d) (hy : ∀ m d, y m d = y' m d) (hW : ∀ e d, W e d = W' e d)
    (hb : ∀ e, b e = b' e) (hV : ∀ e d, V e d = V' e d) (hc : ∀ e, c e = c' e) (hq : ∀ e, q e = q' e) (e : Fin D) :
    outRow x y W b V c q e = outRow x' y' W' b' V' c' q' e := by
  obtain rfl : x = x' := funext fun n => funext fun d => hx n d
  obtain rfl : y = y' := funext fun n => funext fun d => hy n d
  obtain rfl : W = W' := funext fun n => funext fun d => hW n d
  obtain rfl : V = V' := funext fun n => funext fun d => hV n d
  obtain rfl : b = b' := funext hb
  obtain rfl : c = c' := funext hc
  obtain rfl : q = q' := funext hq
  rfl

theorem hz2 : (![0, 0] : Fin 2 → Nat) = fun _ => 0 := funext fun a => by fin_cases a <;> rfl

/-- A load of one batch element of a staged [8, R, 128] block, read at (0, n, d), is the block at (k, n, d). -/
theorem ld_row {R : ℕ} (X : (⟨3, ![8, R, 128]⟩ : Shape).Idx → Elt Ideal .f32) (off : Fin 3 → ℕ) (k : Fin 8) (hoff : off = ![k.val, 0, 0])
    (inb : ∀ a, off a + (⟨3, ![1, R, 128]⟩ : Shape).size a ≤ (⟨3, ![8, R, 128]⟩ : Shape).size a) (n : Fin R) (d : Fin 128) :
    View.ld (Val := Elt Ideal) X (Rect.unit (s := ⟨3, ![8, R, 128]⟩) off (⟨3, ![1, R, 128]⟩ : Shape).size inb) (ix3 0 n d) = X (ix3 k n d) := by
  subst hoff
  show X _ = X _
  refine congrArg X (funext fun a => Fin.ext ?_)
  match a with
  | ⟨0, _⟩ => show k.val + 1 * 0 = k.val; omega
  | ⟨1, _⟩ => show 0 + 1 * n.val = n.val; omega
  | ⟨2, _⟩ => show 0 + 1 * d.val = d.val; omega

variable (m : (ℓ : Loc nD τ sig) → Buf (Elt Ideal) ℓ) (ρ : Dev nD → PrngReg)

/-- WHAT POINT `t` WRITES BACK is block `t` of the result array of the launch contents of the arguments. -/
theorem flushed_eq (c : Dev nD) (t : Fin cfg0.N) :
    (GenP.dats m 0 c).flushed 7 t = ((cfg0.win 7).blk t).view.read (Elt Ideal)
      (result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  show (cfg0.win 7).cut (grid0.coords t) ((GenP.dats m 0 c).after 7 t) = _
  rw [GenP.after0_7]
  unfold GenP.outsAt0
  refine funext fun (j : S8x128.Idx) => ?_
  obtain ⟨k, e, rfl⟩ : ∃ (k : Fin 8) (e : Fin 128), j = ix2 k e := ⟨j 0, j 1, eq_ix2 j⟩
  have hN : cfg0.N = 8 := N_0
  have hb : 8 * t.val + k.val < 64 := by have := t.isLt; have := k.isLt; omega
  show GenP.out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (ix2 k e)
    = result _ _ _ _ _ _ _ (((cfg0.win 7).blk t).view.emb (ix2 k e))
  rw [Rows.out_apply, Geom.out_emb t k e ⟨8 * t.val + k.val, hb⟩ rfl]
  unfold Rows.blockFn Rows.rowTerm
  simp only [View.readAt_eq_ld, Memref.IsWhole.read_unread, View.ld_unit_zero (S := S128x128) hz2, View.ld_unit_zero (S := S1x128) hz2]
  show k0_pay6 (F := Ideal) (k0_pay7 (F := Ideal) _ _ _ _ _ _ _) (ix2 0 e) = resultAt _ _ _ _ _ _ _ ⟨8 * t.val + k.val, hb⟩ e
  rw [RowValue.pay6_apply, RowValue.pay1_eq, RowValue.pay2_eq, RowValue.pay3_eq, RowValue.pay4_eq, RowValue.pay5_eq, RowValue.pay7_apply]
  unfold resultAt
  refine outRow_congr (fun n d => ?_) (fun n d => ?_) (fun e' d => ?_) (fun e' => ?_) (fun e' d => ?_) (fun e' => ?_) (fun e' => ?_) e
  · exact (ld_row _ _ k (k0_off1_eq _) _ n d).trans (Geom.blk0_apply m c t k n d _ rfl)
  · exact (ld_row _ _ k (k0_off2_eq _) _ n d).trans (Geom.blk1_apply m c t k n d _ rfl)
  · exact Geom.blk2_apply m c t d e'
  · exact Geom.blk3_apply m c t e'
  · exact Geom.blk4_apply m c t d e'
  · exact Geom.blk5_apply m c t e'
  · exact Geom.blk6_apply m c t e'

/-- THE ARRAY after the run: the eight points' blocks fill it. -/
theorem final (c : Dev nD) :
    (GenP.dats m 0 c).arrAt 7 cfg0.N
      = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (GenP.dats m 0 c).arrAt_eq_of_cover 7 _ (fun t _ => flushed_eq m c t) Geom.out_cover

/-- The frame run re-posted: the result array at that function of the arguments' launch contents, the arguments unchanged. -/
theorem run : θ_run defs (onTc (τ := τ) (main (F := Ideal))) ⟨m, fun _ => 0, ρ⟩ fun r => ∀ c : Dev nD,
      r.2.mem ((c : Thread nD τ).loc main_v5)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final m c),
      ((h c).1 0).trans (((GenP.dats m 0 c).arrAt_in 0 rfl _).trans ((GenP.A_eq m c 0).trans (V_main_arg0 m c))),
      ((h c).1 1).trans (((GenP.dats m 0 c).arrAt_in 1 rfl _).trans ((GenP.A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (GenP.run_main m ρ)

end Cert.KernelIdeal.Blocks

end
-- ==== Proof.RefProj.lean ====
/-
  The reference's two rectified projections and its bilinear scores, read at coordinates.

  For batch element `b`: the projection of the compound block at `(b, n, e)` is `max (∑_d x0 (b,n,d) · x2 (e,d) + x3 e) 0`,
  that of the protein block at `(b, m, e)` is `max (∑_d x1 (b,m,d) · x4 (e,d) + x5 e) 0`, and the scores at `(b, n, m)`
  are the sum over the feature axis of the products of the two projections' rows.
-/
import proofs.«126189_j62294205661461_1_alg».proof.Proof.Gen.ReferenceIdeal.Read
import proofs.«126189_j62294205661461_1_alg».proof.Proof.Spec
import Idealize.ShloMosaic.Lib.ValueIdx
import Idealize.ShloMosaic.PureOps.Ideal
import Idealize.ShloMosaic.PureOps.Ideal.Laws

noncomputable section

namespace Cert.ReferenceIdeal.RefValue
open Idealize.ShloMosaic Idealize.ShloMosaic.ValueIdx Cert.ReferenceIdeal Cert.ReferenceIdeal.Gen Cert.ReferenceIdeal.Read Cert.BilinearAttn

/-- The rectified projection of the compound block of batch element `b`. -/
abbrev uRows (x0 : (⟨S64x512x128, .f32⟩ : BufTy).Contents (Elt Ideal)) (x2 : (⟨S128x128, .f32⟩ : BufTy).Contents (Elt Ideal))
    (x3 : (⟨S128, .f32⟩ : BufTy).Contents (Elt Ideal)) (b : Fin 64) : Fin 512 → Fin 128 → EReal :=
  proj (fun n d => x0 (ix3 b n d)) (fun e' d => x2 (ix2 e' d)) (fun e' => x3 (ix1 e'))

/-- The rectified projection of the protein block of batch element `b`. -/
abbrev vRows (x1 : (⟨S64x1024x128, .f32⟩ : BufTy).Contents (Elt Ideal)) (x4 : (⟨S128x128, .f32⟩ : BufTy).Contents (Elt Ideal))
    (x5 : (⟨S128, .f32⟩ : BufTy).Contents (Elt Ideal)) (b : Fin 64) : Fin 1024 → Fin 128 → EReal :=
  proj (fun m d => x1 (ix3 b m d)) (fun e' d => x4 (ix2 e' d)) (fun e' => x5 (ix1 e'))

/-! ## The index functions at coordinates -/

theorem lidx_v0 (b : Fin 64) (n : Fin 512) (e k : Fin 128) : lidx_main_v0 (ix3 b n e) k = ix3 b n k :=
  funext fun a => Fin.ext (by match a with | ⟨0, _⟩ => rfl | ⟨1, _⟩ => rfl | ⟨2, _⟩ => rfl)
theorem ridx_v0 (b : Fin 64) (n : Fin 512) (e k : Fin 128) : ridx_main_v0 (ix3 b n e) k = ix2 e k :=
  funext fun a => Fin.ext (by match a with | ⟨0, _⟩ => rfl | ⟨1, _⟩ => rfl)
theorem idx_v1v2 (b : Fin 64) (n : Fin 512) (e : Fin 128) : idx_main_v1 (idx_main_v2 (ix3 b n e)) = ix1 e :=
  funext fun a => Fin.ext (by match a with | ⟨0, _⟩ => rfl)
theorem lidx_v5 (b : Fin 64) (m : Fin 1024) (e k : Fin 128) : lidx_main_v5 (ix3 b m e) k = ix3 b m k :=
  funext fun a => Fin.ext (by match a with | ⟨0, _⟩ => rfl | ⟨1, _⟩ => rfl | ⟨2, _⟩ => rfl)
theorem ridx_v5 (b : Fin 64) (m : Fin 1024) (e k : Fin 128) : ridx_main_v5 (ix3 b m e) k = ix2 e k :=
  funext fun a => Fin.ext (by match a with | ⟨0, _⟩ => rfl | ⟨1, _⟩ => rfl)
theorem idx_v6v7 (b : Fin 64) (m : Fin 1024) (e : Fin 128) : idx_main_v6 (idx_main_v7 (ix3 b m e)) = ix1 e :=
  funext fun a => Fin.ext (by match a with | ⟨0, _⟩ => rfl)
theorem lidx_v10 (b : Fin 64) (n : Fin 512) (m : Fin 1024) (k : Fin 128) : lidx_main_v10 (ix3 b n m) k = ix3 b n k :=
  funext fun a => Fin.ext (by match a with | ⟨0, _⟩ => rfl | ⟨1, _⟩ => rfl | ⟨2, _⟩ => rfl)
theorem ridx_v10 (b : Fin 64) (n : Fin 512) (m : Fin 1024) (k : Fin 128) : ridx_main_v10 (ix3 b n m) k = ix3 b m k :=
  funext fun a => Fin.ext (by match a with | ⟨0, _⟩ => rfl | ⟨1, _⟩ => rfl | ⟨2, _⟩ => rfl)

/-! ## The two projections and the scores -/

/-- The reference's rectified compound projection at `(b, n, e)`. -/
theorem v4_eq (x0 : (⟨S64x512x128, .f32⟩ : BufTy).Contents (Elt Ideal)) (x2 : (⟨S128x128, .f32⟩ : BufTy).Contents (Elt Ideal))
    (x3 : (⟨S128, .f32⟩ : BufTy).Contents (Elt Ideal)) (b : Fin 64) (n : Fin 512) (e : Fin 128) :
    val_main_v4 (F := Ideal) x0 x2 x3 (ix3 b n e) = uRows x0 x2 x3 b n e := by
  rw [val_main_v4_apply, val_main_v3_apply, val_main_v0_apply, val_main_v2_apply, val_main_v1_apply,
    val_main_call0_v0_apply, val_main_call0_cst_apply, idx_v1v2]
  simp only [lidx_v0, ridx_v0]
  rfl

/-- The reference's rectified protein projection at `(b, m, e)`. -/
theorem v9_eq (x1 : (⟨S64x1024x128, .f32⟩ : BufTy).Contents (Elt Ideal)) (x4 : (⟨S128x128, .f32⟩ : BufTy).Contents (Elt Ideal))
    (x5 : (⟨S128, .f32⟩ : BufTy).Contents (Elt Ideal)) (b : Fin 64) (m : Fin 1024) (e : Fin 128) :
    val_main_v9 (F := Ideal) x1 x4 x5 (ix3 b m e) = vRows x1 x4 x5 b m e := by
  rw [val_main_v9_apply, val_main_v8_apply, val_main_v5_apply, val_main_v7_apply, val_main_v6_apply,
    val_main_call1_v0_apply, val_main_call1_cst_apply, idx_v6v7]
  simp only [lidx_v5, ridx_v5]
  rfl

/-- The reference's bilinear scores at `(b, n, m)`. -/
theorem v10_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (b : Fin 64) (n : Fin 512) (m : Fin 1024) :
    val_main_v10 (F := Ideal) x0 x1 x2 x3 x4 x5 (ix3 b n m) = scores (uRows x0 x2 x3 b) (vRows x1 x4 x5 b) n m := by
  rw [val_main_v10_apply]
  unfold scores
  refine Finset.sum_congr rfl fun k _ => ?_
  rw [lidx_v10, ridx_v10, v4_eq, v9_eq]

end Cert.ReferenceIdeal.RefValue

end
-- ==== Proof.RefSoft.lean ====
/-
  The reference's softmax over the protein axis, read at coordinates.

  With `a n m` the bilinear scores of batch element `b`: the row maximum at `(b, n)` is the fold of `max` from -∞ over
  `m` of `a n m`, taken once more against -∞; the shifted exponential at `(b, n, m)` is `exp (a n m - top n)`; the
  row's normaliser at `(b, n)` is the sum of the shifted exponentials; the weight at `(b, n, m)` is their quotient.
-/
import proofs.«126189_j62294205661461_1_alg».proof.Proof.Gen.ReferenceIdeal.Read
import proofs.«126189_j62294205661461_1_alg».proof.Proof.Spec
import proofs.«126189_j62294205661461_1_alg».proof.Proof.RefProj
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefValue
open Idealize.ShloMosaic Idealize.ShloMosaic.ValueIdx Cert.ReferenceIdeal Cert.ReferenceIdeal.Gen Cert.ReferenceIdeal.Read Cert.BilinearAttn

/-- The scores of batch element `b`. -/
abbrev aRows (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (b : Fin 64) : Fin 512 → Fin 1024 → EReal :=
  scores (uRows x0 x2 x3 b) (vRows x1 x4 x5 b)

/-! ## The row maximum -/

theorem reduces_scores : S64x512x1024.Reduces [2] S64x512 := by decide

/-- The reduced index `(b, n)` with the coordinate `k` put back on the last axis is `(b, n, k)`. -/
theorem lift_ix3 (h : S64x512x1024.Reduces [2] S64x512) (b : Fin 64) (n : Fin 512) (k : Fin (S64x512x1024.size 2)) :
    h.lift (ix2 b n) k = ix3 b n (⟨k.val, k.isLt⟩ : Fin 1024) :=
  funext fun c => Fin.ext (by match c with | ⟨0, _⟩ => rfl | ⟨1, _⟩ => rfl | ⟨2, _⟩ => rfl)

/-- The reference's max-reduction of the scores at `(b, n)`: the fold of `max` from -∞ over the row. -/
theorem v11_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (b : Fin 64) (n : Fin 512) :
    val_main_v11 (F := Ideal) x0 x1 x2 x3 x4 x5 (ix2 b n)
      = (Finset.univ : Finset (Fin 1024)).fold max negInfW (aRows x0 x1 x2 x3 x4 x5 b n) := by
  unfold val_main_v11
  refine (Host.reduce_eq_fold_single FloatOps.maximumf _ _ reducesTo_S64x512x1024_S64x512_d2 reduces_scores h_S_ (ix2 b n)).trans ?_
  have hf : (val_main_v10 (F := Ideal) x0 x1 x2 x3 x4 x5 ∘ reduces_scores.lift (ix2 b n))
      = aRows x0 x1 x2 x3 x4 x5 b n := funext fun k => by
    show val_main_v10 (F := Ideal) x0 x1 x2 x3 x4 x5 (reduces_scores.lift (ix2 b n) k) = _
    rw [lift_ix3, v10_eq]
    rfl
  rw [hf]
  rfl

/-- The reference's row maximum at `(b, n)`. -/
theorem v13_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (b : Fin 64) (n : Fin 512) :
    val_main_v13 (F := Ideal) x0 x1 x2 x3 x4 x5 (ix2 b n) = top (aRows x0 x1 x2 x3 x4 x5 b) n := by
  rw [val_main_v13_apply, val_main_v12_apply, val_main_cst_0_apply, v11_eq]
  rfl

/-! ## The shifted exponentials, their row sums and the weights -/

theorem idx_v14v15 (b : Fin 64) (n : Fin 512) (m : Fin 1024) : idx_main_v14 (idx_main_v15 (ix3 b n m)) = ix2 b n :=
  funext fun a => Fin.ext (by match a with | ⟨0, _⟩ => rfl | ⟨1, _⟩ => rfl)
theorem idx_v19v20 (b : Fin 64) (n : Fin 512) (m : Fin 1024) : idx_main_v19 (idx_main_v20 (ix3 b n m)) = ix2 b n :=
  funext fun a => Fin.ext (by match a with | ⟨0, _⟩ => rfl | ⟨1, _⟩ => rfl)
theorem idx_v18 (b : Fin 64) (n : Fin 512) (k : Fin 1024) : idx_main_v18 (ix2 b n) k = ix3 b n k :=
  funext fun a => Fin.ext (by match a with | ⟨0, _⟩ => rfl | ⟨1, _⟩ => rfl | ⟨2, _⟩ => rfl)

/-- The reference's shifted exponential at `(b, n, m)`. -/
theorem v17_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (b : Fin 64) (n : Fin 512) (m : Fin 1024) :
    val_main_v17 (F := Ideal) x0 x1 x2 x3 x4 x5 (ix3 b n m) = expo (aRows x0 x1 x2 x3 x4 x5 b) n m := by
  rw [val_main_v17_apply, val_main_v16_apply, val_main_v15_apply, val_main_v14_apply, idx_v14v15, v10_eq, v13_eq]
  rfl

/-- The reference's row normaliser at `(b, n)`: the sum of the row's shifted exponentials. -/
theorem v18_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (b : Fin 64) (n : Fin 512) :
    val_main_v18 (F := Ideal) x0 x1 x2 x3 x4 x5 (ix2 b n) = ∑ m : Fin 1024, expo (aRows x0 x1 x2 x3 x4 x5 b) n m := by
  rw [val_main_v18_apply, val_main_cst_1_apply, Ideal.ofBits_def, Ideal.ofBits_zero_f32, zero_add]
  refine Finset.sum_congr rfl fun k _ => ?_
  rw [idx_v18, v17_eq]

/-- The reference's softmax weight at `(b, n, m)`. -/
theorem v21_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (b : Fin 64) (n : Fin 512) (m : Fin 1024) :
    val_main_v21 (F := Ideal) x0 x1 x2 x3 x4 x5 (ix3 b n m) = weights (aRows x0 x1 x2 x3 x4 x5 b) n m := by
  rw [val_main_v21_apply, val_main_v20_apply, val_main_v19_apply, idx_v19v20, v17_eq, v18_eq]
  rfl

end Cert.ReferenceIdeal.RefValue

end
-- ==== Proof.RefTail.lean ====
/-
  The reference's context rows and its weighted mean over the rows, read at coordinates.

  With `w n m` the softmax weights and `v m d` the protein projection of batch element `b`: the context at `(b, n, d)`
  is `∑_m w n m · v m d`; the joint row at `(b, n, d)` is `(u n d + c n d) · x6 d`; its sum over `n` at `(b, d)`
  divided by the word of 512 is the output.
-/
import proofs.«126189_j62294205661461_1_alg».proof.Proof.Gen.ReferenceIdeal.Read
import proofs.«126189_j62294205661461_1_alg».proof.Proof.Spec
import proofs.«126189_j62294205661461_1_alg».proof.Proof.RefProj
import proofs.«126189_j62294205661461_1_alg».proof.Proof.RefSoft
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefValue
open Idealize.ShloMosaic Idealize.ShloMosaic.ValueIdx Cert.ReferenceIdeal Cert.ReferenceIdeal.Gen Cert.ReferenceIdeal.Read Cert.BilinearAttn

/-- The context rows of batch element `b`. -/
abbrev cRows (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (b : Fin 64) : Fin 512 → Fin 128 → EReal :=
  context (weights (aRows x0 x1 x2 x3 x4 x5 b)) (vRows x1 x4 x5 b)

theorem lidx_v22 (b : Fin 64) (n : Fin 512) (d : Fin 128) (k : Fin 1024) : lidx_main_v22 (ix3 b n d) k = ix3 b n k :=
  funext fun a => Fin.ext (by match a with | ⟨0, _⟩ => rfl | ⟨1, _⟩ => rfl | ⟨2, _⟩ => rfl)
theorem ridx_v22 (b : Fin 64) (n : Fin 512) (d : Fin 128) (k : Fin 1024) : ridx_main_v22 (ix3 b n d) k = ix3 b k d :=
  funext fun a => Fin.ext (by match a with | ⟨0, _⟩ => rfl | ⟨1, _⟩ => rfl | ⟨2, _⟩ => rfl)
theorem idx_v24v25 (b : Fin 64) (n : Fin 512) (d : Fin 128) : idx_main_v24 (idx_main_v25 (ix3 b n d)) = ix1 d :=
  funext fun a => Fin.ext (by match a with | ⟨0, _⟩ => rfl)
theorem idx_v27 (b : Fin 64) (d : Fin 128) (k : Fin 512) : idx_main_v27 (ix2 b d) k = ix3 b k d :=
  funext fun a => Fin.ext (by match a with | ⟨0, _⟩ => rfl | ⟨1, _⟩ => rfl | ⟨2, _⟩ => rfl)

/-- The reference's context at `(b, n, d)`. -/
theorem v22_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (b : Fin 64) (n : Fin 512) (d : Fin 128) :
    val_main_v22 (F := Ideal) x0 x1 x2 x3 x4 x5 (ix3 b n d) = cRows x0 x1 x2 x3 x4 x5 b n d := by
  rw [val_main_v22_apply]
  unfold cRows context
  refine Finset.sum_congr rfl fun k _ => ?_
  rw [lidx_v22, ridx_v22, v21_eq, v9_eq]

/-- The reference's weighted joint row at `(b, n, d)`. -/
theorem v26_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal)) (b : Fin 64) (n : Fin 512) (d : Fin 128) :
    val_main_v26 (F := Ideal) x0 x1 x2 x3 x4 x5 x6 (ix3 b n d)
      = (uRows x0 x2 x3 b n d + cRows x0 x1 x2 x3 x4 x5 b n d) * x6 (ix1 d) := by
  rw [val_main_v26_apply, val_main_v23_apply, val_main_v25_apply, val_main_v24_apply, idx_v24v25, v4_eq, v22_eq]
  rfl

/-- The reference's sum of the joint rows at `(b, d)`. -/
theorem v27_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal)) (b : Fin 64) (d : Fin 128) :
    val_main_v27 (F := Ideal) x0 x1 x2 x3 x4 x5 x6 (ix2 b d)
      = ∑ n : Fin 512, (uRows x0 x2 x3 b n d + cRows x0 x1 x2 x3 x4 x5 b n d) * x6 (ix1 d) := by
  rw [val_main_v27_apply, val_main_cst_2_apply, Ideal.ofBits_def, Ideal.ofBits_zero_f32, zero_add]
  refine Finset.sum_congr rfl fun k _ => ?_
  rw [idx_v27, v26_eq]

/-- The reference's output at `(b, d)`: the weighted mean over the rows. -/
theorem v29_eq (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal)) (b : Fin 64) (d : Fin 128) :
    val_main_v29 (F := Ideal) x0 x1 x2 x3 x4 x5 x6 (ix2 b d)
      = pooled (uRows x0 x2 x3 b) (cRows x0 x1 x2 x3 x4 x5 b) (fun e' => x6 (ix1 e')) d := by
  rw [val_main_v29_apply, val_main_v28_apply, val_main_cst_3_apply, v27_eq]
  rfl

end Cert.ReferenceIdeal.RefValue

end
-- ==== Proof.RefRow.lean ====
/-
  The reference's output row of one batch element is the bilinear cross-attention of that element's two blocks:
  the chain of the reference's operations, read at `(b, e)`, is `outRow` of the blocks' rows and the layer's parameters.
-/
import proofs.«126189_j62294205661461_1_alg».proof.Proof.Gen.ReferenceIdeal.Read
import proofs.«126189_j62294205661461_1_alg».proof.Proof.Spec
import proofs.«126189_j62294205661461_1_alg».proof.Proof.RefTail
import Idealize.ShloMosaic.Lib.ValueIdx
import Idealize.ShloMosaic.PureOps.Ideal
import Idealize.ShloMosaic.PureOps.Ideal.Laws

noncomputable section

namespace Cert.ReferenceIdeal.RefValue
open Idealize.ShloMosaic Idealize.ShloMosaic.ValueIdx Cert.ReferenceIdeal Cert.ReferenceIdeal.Gen Cert.ReferenceIdeal.Read Cert.BilinearAttn

theorem ref_apply (x0 : (⟨S64x512x128, .f32⟩ : BufTy).Contents (Elt Ideal)) (x1 : (⟨S64x1024x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 : (⟨S128, .f32⟩ : BufTy).Contents (Elt Ideal)) (b : Fin 64) (e : Fin 128) :
    val_main_v29 (F := Ideal) x0 x1 x2 x3 x4 x5 x6 (ix2 b e)
      = outRow (fun n d => x0 (ix3 b n d)) (fun m d => x1 (ix3 b m d)) (fun e' d => x2 (ix2 e' d)) (fun e' => x3 (ix1 e'))
          (fun e' d => x4 (ix2 e' d)) (fun e' => x5 (ix1 e')) (fun e' => x6 (ix1 e')) e :=
  v29_eq x0 x1 x2 x3 x4 x5 x6 b e

end Cert.ReferenceIdeal.RefValue

end
-- ==== Proof.lean ====
/-
  The certificate of a bilinear cross-attention layer: a kernel that, for each of 64 batch elements, maps a block of 512
  compound rows and a block of 1024 protein rows through two rectified affine maps, scores every pair of rows, takes
  the softmax of each compound row's scores, gathers context rows, and returns the weighted mean over the compound rows
  — against the same layer written with whole-array operations.

  On the extended reals the two programs apply the same operations in the same order to the same entries: a change of
  float format is the identity, a matrix product into a zero accumulator is the sum of products, a reduction is the sum
  or the maximum over its axis. The kernel does it eight batch elements per grid point, one batch element per trip of a
  loop in its body; the reference does it for all 64 at once. So each entry `(b, e)` of both results is ONE function of
  the arguments, the output row of batch element `b` at `e` (the specification's `outRow`): the kernel's side is read
  off its frame run point by point and trip by trip, the reference's side off its run operation by operation, and no
  algebraic law — hence no use of the inputs' finiteness — is needed to join them. The idealization rewrote nothing, so
  the kernel and its idealization are the same program read at two instances.
-/
import proofs.«126189_j62294205661461_1_alg».proof.Defs
import proofs.«126189_j62294205661461_1_alg».proof.Proof.Gen.Kernel
import proofs.«126189_j62294205661461_1_alg».proof.Proof.Gen.KernelIdeal
import proofs.«126189_j62294205661461_1_alg».proof.Proof.Gen.ReferenceIdeal
import proofs.«126189_j62294205661461_1_alg».proof.Proof.Gen.Pre_finite_inputs
import proofs.«126189_j62294205661461_1_alg».proof.Proof.Gen.ReferenceIdeal.Run
import proofs.«126189_j62294205661461_1_alg».proof.Proof.Gen.ReferenceIdeal.Read
import proofs.«126189_j62294205661461_1_alg».proof.Proof.FrameK
import proofs.«126189_j62294205661461_1_alg».proof.Proof.FrameI
import proofs.«126189_j62294205661461_1_alg».proof.Proof.BlocksI
import proofs.«126189_j62294205661461_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, and leaves its arguments as they were. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same array: entry `(b, e)` is the output row of
    batch element `b` at `e`, for the kernel by its blocks and for the reference operation by operation. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2.1, (hagree c).2.2.2.2.2.1, (hagree c).2.2.2.2.2.2]
  funext i
  obtain ⟨b, e, rfl⟩ : ∃ (b : Fin 64) (e : Fin 128), i = ix2 b e := ⟨i 0, i 1, eq_ix2 i⟩
  exact Cert.ReferenceIdeal.RefValue.ref_apply _ _ _ _ _ _ _ b e

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
